-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v74)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v6)) (v5 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v74) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_v3) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_v15) = v4 c
          ∧ r.2.mem ((c.tc : Thread Cert.ReferenceIdeal.nD Cert.ReferenceIdeal.τ).loc Cert.ReferenceIdeal.main_v7) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x50000 : Shape := ⟨2, ![1024, 50000]⟩
abbrev S1024x256 : Shape := ⟨2, ![1024, 256]⟩
abbrev S_ : Shape := ⟨0, ![]⟩

class Facts : Prop where
  bcast_S_S1024x50000 : S_.BroadcastsInDim S1024x50000 (![] : Fin 0 → Fin S1024x50000.rank)
  reducesTo_S1024x50000_S_d0_1 : S1024x50000.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn_part2 {F : FTy → Type} [FloatOps F] (main_arg7 : FVec F S1024x256 .f32) (main_arg8 : FVec F S1024x256 .f32) (main_arg9 : FVec F S1024x50000 .f32) (main_v33 : IVec S_ 1) : IVec S_ 1 :=
  let main_v34 : FVec F S1024x256 .f32 := Host.absf main_arg7
  let main_cst_12 : FVec F S_ .f32 := constant S_ .f32 0x7F800000#32
  let main_v35 : FVec F S1024x256 .f32 := broadcastInDim S1024x256 ![] bcast_S_S1024x256 main_cst_12
  let main_v36 : IVec S1024x256 1 := cmpf .olt main_v34 main_v35
  let main_c_13 : IVec S_ 1 := constantI S_ 1 1#1
  let main_v37 : IVec S_ 1 := (fun x v => Host.reduce IntOp.andi x v reducesTo_S1024x256_S_d0_1 h_S_) main_v36 main_c_13
  let main_v38 : IVec S_ 1 := andi main_v33 main_v37
  let main_v39 : FVec F S1024x256 .f32 := Host.absf main_arg8
  let main_cst_14 : FVec F S_ .f32 := constant S_ .f32 0x7F800000#32
  let main_v40 : FVec F S1024x256 .f32 := broadcastInDim S1024x256 ![] bcast_S_S1024x256 main_cst_14
  let main_v41 : IVec S1024x256 1 := cmpf .olt main_v39 main_v40
  let main_c_15 : IVec S_ 1 := constantI S_ 1 1#1
  let main_v42 : IVec S_ 1 := (fun x v => Host.reduce IntOp.andi x v reducesTo_S1024x256_S_d0_1 h_S_) main_v41 main_c_15
  let main_v43 : IVec S_ 1 := andi main_v38 main_v42
  let main_v44 : FVec F S1024x50000 .f32 := Host.absf main_arg9
  let main_cst_16 : FVec F S_ .f32 := constant S_ .f32 0x7F800000#32
  let main_v45 : FVec F S1024x50000 .f32 := broadcastInDim S1024x50000 ![] bcast_S_S1024x50000 main_cst_16
  let main_v46 : IVec S1024x50000 1 := cmpf .olt main_v44 main_v45
  let main_c_17 : IVec S_ 1 := constantI S_ 1 1#1
  let main_v47 : IVec S_ 1 := (fun x v => Host.reduce IntOp.andi x v reducesTo_S1024x50000_S_d0_1 h_S_) main_v46 main_c_17
  let main_v48 : IVec S_ 1 := andi main_v43 main_v47
  main_v48

def fn_part1 {F : FTy → Type} [FloatOps F] (main_arg4 : FVec F S1024x256 .f32) (main_arg5 : FVec F S1024x50000 .f32) (main_arg6 : FVec F S1024x50000 .f32) (main_arg7 : FVec F S1024x256 .f32) (main_arg8 : FVec F S1024x256 .f32) (main_arg9 : FVec F S1024x50000 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024x50000 .f32 := Host.absf main_arg5
  let main_cst_8 : FVec F S_ .f32 := constant S_ .f32 0x7F800000#32
  let main_v25 : FVec F S1024x50000 .f32 := broadcastInDim S1024x50000 ![] bcast_S_S1024x50000 main_cst_8
  let main_v26 : IVec S1024x50000 1 := cmpf .olt main_v24 main_v25
  let main_c_9 : IVec S_ 1 := constantI S_ 1 1#1
  let main_v27 : IVec S_ 1 := (fun x v => Host.reduce IntOp.andi x v reducesTo_S1024x50000_S_d0_1 h_S_) main_v26 main_c_9
  let main_v28 : IVec S_ 1 := andi main_v23 main_v27
  let main_v29 : FVec F S1024x50000 .f32 := Host.absf main_arg6
  let main_cst_10 : FVec F S_ .f32 := constant S_ .f32 0x7F800000#32
  let main_v30 : FVec F S1024x50000 .f32 := broadcastInDim S1024x50000 ![] bcast_S_S1024x50000 main_cst_10
  let main_v31 : IVec S1024x50000 1 := cmpf .olt main_v29 main_v30
  let main_c_11 : IVec S_ 1 := constantI S_ 1 1#1
  let main_v32 : IVec S_ 1 := (fun x v => Host.reduce IntOp.andi x v reducesTo_S1024x50000_S_d0_1 h_S_) main_v31 main_c_11
  let main_v33 : IVec S_ 1 := andi main_v28 main_v32
  fn_part2 (F := F) main_arg7 main_arg8 main_arg9 main_v33

def fn {F : FTy → Type} [FloatOps F] (main_arg0 : FVec F S1024x50000 .f32) (main_arg1 : FVec F S1024x50000 .f32) (main_arg2 : FVec F S1024x256 .f32) (main_arg3 : FVec F S1024x256 .f32) (main_arg4 : FVec F S1024x256 .f32) (main_arg5 : FVec F S1024x50000 .f32) (main_arg6 : FVec F S1024x50000 .f32) (main_arg7 : FVec F S1024x256 .f32) (main_arg8 : FVec F S1024x256 .f32) (main_arg9 : FVec F S1024x50000 .f32) : IVec S_ 1 :=
  let main_v0 : FVec F S1024x50000 .f32 := Host.absf main_arg0
  let main_cst : FVec F S_ .f32 := constant S_ .f32 0x7F800000#32
  let main_v1 : FVec F S1024x50000 .f32 := broadcastInDim S1024x50000 ![] bcast_S_S1024x50000 main_cst
  let main_v2 : IVec S1024x50000 1 := cmpf .olt main_v0 main_v1
  let main_c : IVec S_ 1 := constantI S_ 1 1#1
  let main_v3 : IVec S_ 1 := (fun x v => Host.reduce IntOp.andi x v reducesTo_S1024x50000_S_d0_1 h_S_) main_v2 main_c
  let main_v4 : FVec F S1024x50000 .f32 := Host.absf main_arg1
  let main_cst_0 : FVec F S_ .f32 := constant S_ .f32 0x7F800000#32
  let main_v5 : FVec F S1024x50000 .f32 := broadcastInDim S1024x50000 ![] bcast_S_S1024x50000 main_cst_0
  let main_v6 : IVec S1024x50000 1 := cmpf .olt main_v4 main_v5
  let main_c_1 : IVec S_ 1 := constantI S_ 1 1#1
  let main_v7 : IVec S_ 1 := (fun x v => Host.reduce IntOp.andi x v reducesTo_S1024x50000_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_arg6 main_arg7 main_arg8 main_arg9 main_v13 main_v16
-- ==== Kernel.lean ====
abbrev S1024x50000 : Shape := ⟨2, ![1024, 50000]⟩
abbrev S1024x256 : Shape := ⟨2, ![1024, 256]⟩
abbrev S1024x1 : Shape := ⟨2, ![1024, 1]⟩
abbrev S32x50000 : Shape := ⟨2, ![32, 50000]⟩
abbrev S32x1 : Shape := ⟨2, ![32, 1]⟩
abbrev S32 : Shape := ⟨1, ![32]⟩
abbrev S_ : Shape := ⟨0, ![]⟩
abbrev S1024 : Shape := ⟨1, ![1024]⟩

abbrev nBuf : Space → Nat
  | .hbm => 126
  | .vmem => 14
  | .smem => 0
  | _ => 0

abbrev bufTy : (tb : Table) → Fin (tcTables nBuf tb) → BufTy
  | .hbm, ⟨0, _⟩ => ⟨S1024x50000, .f32⟩
  | .hbm, ⟨1, _⟩ => ⟨S1024x50000, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x50000, .f32⟩
  | .hbm, ⟨6, _⟩ => ⟨S1024x50000, .f32⟩
  | .hbm, ⟨7, _⟩ => ⟨S1024x256, .f32⟩
  | .hbm, ⟨8, _⟩ => ⟨S1024x256, .f32⟩
  | .hbm, ⟨9, _⟩ => ⟨S1024x50000, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1024x256, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S_, .f32⟩
  | .hbm, ⟨40, _⟩ => ⟨S1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S1024x256, .f32⟩
  | .hbm, ⟨56, _⟩ => ⟨S1024x256, .f32⟩
  | .hbm, ⟨57, _⟩ => ⟨S1024x256, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S1024x256, .f32⟩
  | .hbm, ⟨62, _⟩ => ⟨S1024x256, .f32⟩
  | .hbm, ⟨63, _⟩ => ⟨S_, .f32⟩
  | .hbm, ⟨64, _⟩ => ⟨S1024x256, .f32⟩
  | .hbm, ⟨65, _⟩ => ⟨S1024x256, .f32⟩
  | .hbm, ⟨66, _⟩ => ⟨S_, .f32⟩
  | .hbm, ⟨67, _⟩ => ⟨S1024x256, .f32⟩
  | .hbm, ⟨68, _⟩ => ⟨S1024x256, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S1024x256, .f32⟩
  | .hbm, ⟨73, _⟩ => ⟨S1024x256, .f32⟩
  | .hbm, ⟨74, _⟩ => ⟨S1024x256, .f32⟩
  | .hbm, ⟨75, _⟩ => ⟨S1024x256, .f32⟩
  | .hbm, ⟨76, _⟩ => ⟨S1024x256, .f32⟩
  | .hbm, ⟨77, _⟩ => ⟨S1024x256, .f32⟩
  | .hbm, ⟨78, _⟩ => ⟨S1024x256, .f32⟩
  | .hbm, ⟨79, _⟩ => ⟨S_, .f32⟩
  | .hbm, ⟨80, _⟩ => ⟨S1024x256, .f32⟩
  | .hbm, ⟨81, _⟩ => ⟨S1024x256, .f32⟩
  | .hbm, ⟨82, _⟩ => ⟨S1024x256, .f32⟩
  | .hbm, ⟨83, _⟩ => ⟨S_, .f32⟩
  | .hbm, ⟨84, _⟩ => ⟨S1024, .f32⟩
  | .hbm, ⟨85, _⟩ => ⟨S_, .f32⟩
  | .hbm, ⟨86, _⟩ => ⟨S1024, .f32⟩
  | .hbm, ⟨87, _⟩ => ⟨S1024, .f32⟩
  | .hbm, ⟨88, _⟩ => ⟨S_, .f32⟩
  | .hbm, ⟨89, _⟩ => ⟨S1024, .f32⟩
  | .hbm, ⟨90, _⟩ => ⟨S1024, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S1024x256, .f32⟩
  | .hbm, ⟨96, _⟩ => ⟨S1024x256, .f32⟩
  | .hbm, ⟨97, _⟩ => ⟨S1024x256, .f32⟩
  | .hbm, ⟨98, _⟩ => ⟨S1024x256, .f32⟩
  | .hbm, ⟨99, _⟩ => ⟨S_, .f32⟩
  | .hbm, ⟨100, _⟩ => ⟨S1024, .f32⟩
  | .hbm, ⟨101, _⟩ => ⟨S_, .f32⟩
  | .hbm, ⟨102, _⟩ => ⟨S1024, .f32⟩
  | .hbm, ⟨103, _⟩ => ⟨S_, .f32⟩
  | .hbm, ⟨104, _⟩ => ⟨S1024, .f32⟩
  | .hbm, ⟨105, _⟩ => ⟨S1024, .f32⟩
  | .hbm, ⟨106, _⟩ => ⟨S1024x256, .f32⟩
  | .hbm, ⟨107, _⟩ => ⟨S1024x256, .f32⟩
  | .hbm, ⟨108, _⟩ => ⟨S_, .f32⟩
  | .hbm, ⟨109, _⟩ => ⟨S1024, .f32⟩
  | .hbm, ⟨110, _⟩ => ⟨S_, .f32⟩
  | .hbm, ⟨111, _⟩ => ⟨S1024, .f32⟩
  | .hbm, ⟨112, _⟩ => ⟨S1024, .f32⟩
  | .hbm, ⟨113, _⟩ => ⟨S1024, .f32⟩
  | .hbm, ⟨114, _⟩ => ⟨S1024, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .local _ .vmem, ⟨0, _⟩ => ⟨S32x50000, .f32⟩
  | .local _ .vmem, ⟨1, _⟩ => ⟨S32x50000, .f32⟩
  | .local _ .vmem, ⟨2, _⟩ => ⟨S32x50000, .f32⟩
  | .local _ .vmem, ⟨3, _⟩ => ⟨S32x50000, .f32⟩
  | .local _ .vmem, ⟨4, _⟩ => ⟨S32x50000, .f32⟩
  | .local _ .vmem, ⟨5, _⟩ => ⟨S32x50000, .f32⟩
  | .local _ .vmem, ⟨6, _⟩ => ⟨S32x50000, .f32⟩
  | .local _ .vmem, ⟨7, _⟩ => ⟨S32x50000, .f32⟩
  | .local _ .vmem, ⟨8, _⟩ => ⟨S32x1, .f32⟩
  | .local _ .vmem, ⟨9, _⟩ => ⟨S32x1, .f32⟩
  | .local _ .vmem, ⟨10, _⟩ => ⟨S32x1, .f32⟩
  | .local _ .vmem, ⟨11, _⟩ => ⟨S32x1, .f32⟩
  | .local _ .vmem, ⟨12, _⟩ => ⟨S32x1, .f32⟩
  | .local _ .vmem, ⟨13, _⟩ => ⟨S32x1, .f32⟩
  | _, _ => ⟨S1024x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_cst_3 : Ref sig .tc := ⟨.hbm, 23, rfl⟩
abbrev main_v7 : Ref sig .tc := ⟨.hbm, 24, rfl⟩
abbrev main_cst_4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_5 : Ref sig .tc := ⟨.hbm, 30, rfl⟩
abbrev main_v12 : Ref sig .tc := ⟨.hbm, 31, rfl⟩
abbrev main_cst_6 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_7 : Ref sig .tc := ⟨.hbm, 39, rfl⟩
abbrev main_v19 : Ref sig .tc := ⟨.hbm, 40, rfl⟩
abbrev main_cst_8 : Ref sig .tc := ⟨.hbm, 41, rfl⟩
abbrev main_v20 : Ref sig .tc := ⟨.hbm, 42, rfl⟩
abbrev main_v21 : Ref sig .tc := ⟨.hbm, 43, rfl⟩
abbrev main_cst_9 : Ref sig .tc := ⟨.hbm, 44, rfl⟩
abbrev main_v22 : Ref sig .tc := ⟨.hbm, 45, rfl⟩
abbrev main_cst_10 : Ref sig .tc := ⟨.hbm, 46, rfl⟩
abbrev main_v23 : Ref sig .tc := ⟨.hbm, 47, rfl⟩
abbrev main_cst_11 : Ref sig .tc := ⟨.hbm, 48, rfl⟩
abbrev main_v24 : Ref sig .tc := ⟨.hbm, 49, rfl⟩
abbrev main_cst_12 : Ref sig .tc := ⟨.hbm, 50, rfl⟩
abbrev main_v25 : Ref sig .tc := ⟨.hbm, 51, rfl⟩
abbrev main_cst_13 : Ref sig .tc := ⟨.hbm, 52, rfl⟩
abbrev main_v26 : Ref sig .tc := ⟨.hbm, 53, rfl⟩
abbrev main_cst_14 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_15 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_16 : Ref sig .tc := ⟨.hbm, 66, rfl⟩
abbrev main_v37 : Ref sig .tc := ⟨.hbm, 67, rfl⟩
abbrev main_v38 : Ref sig .tc := ⟨.hbm, 68, rfl⟩
abbrev main_cst_17 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_18 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_19 : Ref sig .tc := ⟨.hbm, 83, rfl⟩
abbrev main_v51 : Ref sig .tc := ⟨.hbm, 84, rfl⟩
abbrev main_cst_20 : Ref sig .tc := ⟨.hbm, 85, rfl⟩
abbrev main_v52 : Ref sig .tc := ⟨.hbm, 86, rfl⟩
abbrev main_v53 : Ref sig .tc := ⟨.hbm, 87, rfl⟩
abbrev main_cst_21 : Ref sig .tc := ⟨.hbm, 88, rfl⟩
abbrev main_v54 : Ref sig .tc := ⟨.hbm, 89, rfl⟩
abbrev main_v55 : Ref sig .tc := ⟨.hbm, 90, rfl⟩
abbrev main_cst_22 : Ref sig .tc := ⟨.hbm, 91, rfl⟩
abbrev main_v56 : Ref sig .tc := ⟨.hbm, 92, rfl⟩
abbrev main_cst_23 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_24 : Ref sig .tc := ⟨.hbm, 99, rfl⟩
abbrev main_v62 : Ref sig .tc := ⟨.hbm, 100, rfl⟩
abbrev main_cst_25 : Ref sig .tc := ⟨.hbm, 101, rfl⟩
abbrev main_v63 : Ref sig .tc := ⟨.hbm, 102, rfl⟩
abbrev main_cst_26 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_27 : Ref sig .tc := ⟨.hbm, 108, rfl⟩
abbrev main_v68 : Ref sig .tc := ⟨.hbm, 109, rfl⟩
abbrev main_cst_28 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_29 : Ref sig .tc := ⟨.hbm, 115, rfl⟩
abbrev main_v73 : Ref sig .tc := ⟨.hbm, 116, rfl⟩
abbrev main_cst_30 : Ref sig .tc := ⟨.hbm, 117, rfl⟩
abbrev main_v74 : Ref sig .tc := ⟨.hbm, 118, rfl⟩
abbrev main_v75 : Ref sig .tc := ⟨.hbm, 119, rfl⟩
abbrev main_cst_31 : Ref sig .tc := ⟨.hbm, 120, rfl⟩
abbrev main_v76 : Ref sig .tc := ⟨.hbm, 121, rfl⟩
abbrev main_v77 : Ref sig .tc := ⟨.hbm, 122, rfl⟩
abbrev main_cst_32 : Ref sig .tc := ⟨.hbm, 123, rfl⟩
abbrev main_v78 : Ref sig .tc := ⟨.hbm, 124, rfl⟩
abbrev main_v79 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x50000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x50000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x50000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x50000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S32x50000_S32x50000_0_0 : ∀ a, (![0, 0] : Fin 2 → Nat) a + S32x50000.size a ≤ S32x50000.size a
  h_S32x50000 : 0 < S32x50000.numel
  reduces_S32x50000_S32 : S32x50000.Reduces [1] S32
  shapeCasts_S32_S32x1 : S32.ShapeCasts S32x1
  broadcasts_S32x1_S32x50000 : S32x1.Broadcasts S32x50000
  inb_S32x1_S32x1_0_0 : ∀ a, (![0, 0] : Fin 2 → Nat) a + S32x1.size a ≤ S32x1.size a
  h_S32x1 : 0 < S32x1.numel
  reducesTo_S1024x1_S_d0_1 : S1024x1.ReducesTo [0, 1] S_
  h_S_ : 0 < S_.numel
  bcast_S_S1024x256 : S_.BroadcastsInDim S1024x256 (![] : Fin 0 → Fin S1024x256.rank)
  reducesTo_S1024x256_S1024_d1 : S1024x256.ReducesTo [1] S1024
  bcast_S_S1024 : S_.BroadcastsInDim S1024 (![] : Fin 0 → Fin S1024.rank)
  reducesTo_S1024_S_d0 : S1024.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x50000.size a ≤ S1024x50000.size a
  hwx0_0 : ∀ i : grid0.Coords, EltTy.bits .f32 = 32 ∨ (Rect.block (s := S1024x50000) S32x50000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x50000.size a ≤ S1024x50000.size a
  hwx0_1 : ∀ i : grid0.Coords, EltTy.bits .f32 = 32 ∨ (Rect.block (s := S1024x50000) S32x50000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x50000.size a ≤ S1024x50000.size a
  hwx0_2 : ∀ i : grid0.Coords, EltTy.bits .f32 = 32 ∨ (Rect.block (s := S1024x50000) S32x50000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x50000.size a ≤ S1024x50000.size a
  hwx0_3 : ∀ i : grid0.Coords, EltTy.bits .f32 = 32 ∨ (Rect.block (s := S1024x50000) S32x50000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S1024x1.size a
  hwx0_4 : ∀ i : grid0.Coords, EltTy.bits .f32 = 32 ∨ (Rect.block (s := S1024x1) S32x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S1024x1.size a
  hwx0_5 : ∀ i : grid0.Coords, EltTy.bits .f32 = 32 ∨ (Rect.block (s := S1024x1) S32x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S1024x1.size a
  hwx0_6 : ∀ i : grid0.Coords, EltTy.bits .f32 = 32 ∨ (Rect.block (s := S1024x1) S32x1.size (cc0_transform_6 i) (hinb0_6 i)).WholeWords (EltTy.packing .f32)

variable [Facts₀]

abbrev win0_0 : Pipeline.Window sig grid0 :=
  Pipeline.Window.ofSpec (Memref.whole main_arg0) S32x50000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S32x50000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S32x50000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S32x50000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S32x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S32x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S32x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x50000 : Shape := ⟨2, ![1024, 50000]⟩
abbrev S1024x256 : Shape := ⟨2, ![1024, 256]⟩
abbrev S_ : Shape := ⟨0, ![]⟩
abbrev S1024 : Shape := ⟨1, ![1024]⟩
abbrev S1024x1 : Shape := ⟨2, ![1024, 1]⟩

abbrev nBuf : Space → Nat
  | .hbm => 186
  | .vmem => 0
  | .smem => 0
  | _ => 0

abbrev hbmTy0_0 (i : Nat) : BufTy := match i % 128 with
  | 0 => ⟨S1024x50000, .f32⟩
  | 1 => ⟨S1024x50000, .f32⟩
  | 2 => ⟨S1024x256, .f32⟩
  | 3 => ⟨S1024x256, .f32⟩
  | 4 => ⟨S1024x256, .f32⟩
  | 5 => ⟨S1024x50000, .f32⟩
  | 6 => ⟨S1024x50000, .f32⟩
  | 7 => ⟨S1024x256, .f32⟩
  | 8 => ⟨S1024x256, .f32⟩
  | 9 => ⟨S1024x50000, .f32⟩
  | 10 => ⟨S_, .f32⟩
  | 11 => ⟨S1024, .f32⟩
  | 12 => ⟨S_, .f32⟩
  | 13 => ⟨S1024, .f32⟩
  | 14 => ⟨S1024, .f32⟩
  | 15 => ⟨S1024x1, .f32⟩
  | 16 => ⟨S1024x50000, .f32⟩
  | 17 => ⟨S1024x50000, .f32⟩
  | 18 => ⟨S1024x50000, .f32⟩
  | 19 => ⟨S_, .f32⟩
  | 20 => ⟨S1024, .f32⟩
  | 21 => ⟨S1024x1, .f32⟩
  | 22 => ⟨S1024x1, .f32⟩
  | 23 => ⟨S1024x50000, .f32⟩
  | 24 => ⟨S1024x50000, .f32⟩
  | 25 => ⟨S1024x50000, .f32⟩
  | 26 => ⟨S_, .f32⟩
  | 27 => ⟨S1024, .f32⟩
  | 28 => ⟨S_, .f32⟩
  | 29 => ⟨S1024, .f32⟩
  | 30 => ⟨S1024, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S1024, .f32⟩
  | 38 => ⟨S_, .f32⟩
  | 39 => ⟨S1024, .f32⟩
  | 40 => ⟨S1024, .f32⟩
  | 41 => ⟨S1024x1, .f32⟩
  | 42 => ⟨S1024x50000, .f32⟩
  | 43 => ⟨S1024x50000, .f32⟩
  | 44 => ⟨S1024x50000, .f32⟩
  | 45 => ⟨S_, .f32⟩
  | 46 => ⟨S1024, .f32⟩
  | 47 => ⟨S1024x1, .f32⟩
  | 48 => ⟨S1024x1, .f32⟩
  | 49 => ⟨S1024x50000, .f32⟩
  | 50 => ⟨S1024x50000, .f32⟩
  | 51 => ⟨S1024x50000, .f32⟩
  | 52 => ⟨S_, .f32⟩
  | 53 => ⟨S1024, .f32⟩
  | 54 => ⟨S_, .f32⟩
  | 55 => ⟨S1024, .f32⟩
  | 56 => ⟨S1024, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S1024, .f32⟩
  | 64 => ⟨S_, .f32⟩
  | 65 => ⟨S1024, .f32⟩
  | 66 => ⟨S1024, .f32⟩
  | 67 => ⟨S1024x1, .f32⟩
  | 68 => ⟨S1024x50000, .f32⟩
  | 69 => ⟨S1024x50000, .f32⟩
  | 70 => ⟨S1024x50000, .f32⟩
  | 71 => ⟨S_, .f32⟩
  | 72 => ⟨S1024, .f32⟩
  | 73 => ⟨S1024x1, .f32⟩
  | 74 => ⟨S1024x1, .f32⟩
  | 75 => ⟨S1024x50000, .f32⟩
  | 76 => ⟨S1024x50000, .f32⟩
  | 77 => ⟨S1024x50000, .f32⟩
  | 78 => ⟨S_, .f32⟩
  | 79 => ⟨S1024, .f32⟩
  | 80 => ⟨S_, .f32⟩
  | 81 => ⟨S1024, .f32⟩
  | 82 => ⟨S1024, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S1024x256, .f32⟩
  | 94 => ⟨S1024x256, .f32⟩
  | 95 => ⟨S1024x256, .f32⟩
  | 96 => ⟨S1024x256, .f32⟩
  | 97 => ⟨S1024x256, .f32⟩
  | 98 => ⟨S1024x256, .f32⟩
  | 99 => ⟨S_, .f32⟩
  | 100 => ⟨S1024, .f32⟩
  | 101 => ⟨S_, .f32⟩
  | 102 => ⟨S1024, .f32⟩
  | 103 => ⟨S1024, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S1024x256, .f32⟩
  | 116 => ⟨S1024x256, .f32⟩
  | 117 => ⟨S1024x256, .f32⟩
  | 118 => ⟨S_, .f32⟩
  | 119 => ⟨S_, .f32⟩
  | 120 => ⟨S_, .f32⟩
  | 121 => ⟨S1024x256, .f32⟩
  | 122 => ⟨S1024x256, .f32⟩
  | 123 => ⟨S_, .f32⟩
  | 124 => ⟨S1024x256, .f32⟩
  | 125 => ⟨S1024x256, .f32⟩
  | 126 => ⟨S_, .f32⟩
  | 127 => ⟨S1024x256, .f32⟩
  | _ => ⟨S1024x50000, .f32⟩

abbrev hbmTy0_1 (i : Nat) : BufTy := match i % 128 with
  | 0 => ⟨S1024x256, .f32⟩
  | 1 => ⟨S_, .f32⟩
  | 2 => ⟨S_, .f32⟩
  | 3 => ⟨S_, .f32⟩
  | 4 => ⟨S1024x256, .f32⟩
  | 5 => ⟨S1024x256, .f32⟩
  | 6 => ⟨S1024x256, .f32⟩
  | 7 => ⟨S1024x256, .f32⟩
  | 8 => ⟨S1024x256, .f32⟩
  | 9 => ⟨S1024x256, .f32⟩
  | 10 => ⟨S1024x256, .f32⟩
  | 11 => ⟨S_, .f32⟩
  | 12 => ⟨S1024x256, .f32⟩
  | 13 => ⟨S1024x256, .f32⟩
  | 14 => ⟨S1024x256, .f32⟩
  | 15 => ⟨S_, .f32⟩
  | 16 => ⟨S1024, .f32⟩
  | 17 => ⟨S_, .f32⟩
  | 18 => ⟨S1024, .f32⟩
  | 19 => ⟨S1024, .f32⟩
  | 20 => ⟨S_, .f32⟩
  | 21 => ⟨S1024, .f32⟩
  | 22 => ⟨S1024, .f32⟩
  | 23 => ⟨S_, .f32⟩
  | 24 => ⟨S_, .f32⟩
  | 25 => ⟨S_, .f32⟩
  | 26 => ⟨S_, .f32⟩
  | 27 => ⟨S1024x256, .f32⟩
  | 28 => ⟨S1024x256, .f32⟩
  | 29 => ⟨S1024x256, .f32⟩
  | 30 => ⟨S1024x256, .f32⟩
  | 31 => ⟨S_, .f32⟩
  | 32 => ⟨S1024, .f32⟩
  | 33 => ⟨S_, .f32⟩
  | 34 => ⟨S1024, .f32⟩
  | 35 => ⟨S_, .f32⟩
  | 36 => ⟨S1024, .f32⟩
  | 37 => ⟨S1024, .f32⟩
  | 38 => ⟨S1024x256, .f32⟩
  | 39 => ⟨S1024x256, .f32⟩
  | 40 => ⟨S_, .f32⟩
  | 41 => ⟨S1024, .f32⟩
  | 42 => ⟨S_, .f32⟩
  | 43 => ⟨S1024, .f32⟩
  | 44 => ⟨S1024, .f32⟩
  | 45 => ⟨S1024, .f32⟩
  | 46 => ⟨S1024, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | _ => ⟨S1024x50000, .f32⟩

abbrev hbmTy (i : Nat) : BufTy := match i / 128 with
  | 0 => hbmTy0_0 i
  | 1 => hbmTy0_1 i
  | _ => ⟨S1024x50000, .f32⟩

abbrev bufTy : (tb : Table) → Fin (tcTables nBuf tb) → BufTy
  | .hbm, ⟨i, _⟩ => hbmTy i
  | _, _ => ⟨S1024x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_cst : Ref sig .tc := ⟨.hbm, 10, rfl⟩
abbrev main_call0_v0 : Ref sig .tc := ⟨.hbm, 11, rfl⟩
abbrev main_call0_cst_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst_1 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_v0 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_cst_0 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_cst_2 : Ref sig .tc := ⟨.hbm, 33, rfl⟩
abbrev main_v6 : Ref sig .tc := ⟨.hbm, 34, rfl⟩
abbrev main_v7 : Ref sig .tc := ⟨.hbm, 35, rfl⟩
abbrev main_call1_cst : Ref sig .tc := ⟨.hbm, 36, rfl⟩
abbrev main_call1_v0 : Ref sig .tc := ⟨.hbm, 37, rfl⟩
abbrev main_call1_cst_0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_cst_1 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_v8 : Ref sig .tc := ⟨.hbm, 50, rfl⟩
abbrev main_v9 : Ref sig .tc := ⟨.hbm, 51, rfl⟩
abbrev main_cst_3 : Ref sig .tc := ⟨.hbm, 52, rfl⟩
abbrev main_v10 : Ref sig .tc := ⟨.hbm, 53, rfl⟩
abbrev main_cst_4 : Ref sig .tc := ⟨.hbm, 54, rfl⟩
abbrev main_v11 : Ref sig .tc := ⟨.hbm, 55, rfl⟩
abbrev main_v12 : Ref sig .tc := ⟨.hbm, 56, rfl⟩
abbrev main_cst_5 : Ref sig .tc := ⟨.hbm, 57, rfl⟩
abbrev main_v13 : Ref sig .tc := ⟨.hbm, 58, rfl⟩
abbrev main_cst_6 : Ref sig .tc := ⟨.hbm, 59, rfl⟩
abbrev main_v14 : Ref sig .tc := ⟨.hbm, 60, rfl⟩
abbrev main_v15 : Ref sig .tc := ⟨.hbm, 61, rfl⟩
abbrev main_call2_cst : Ref sig .tc := ⟨.hbm, 62, rfl⟩
abbrev main_call2_v0 : Ref sig .tc := ⟨.hbm, 63, rfl⟩
abbrev main_call2_cst_0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_cst_1 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_v16 : Ref sig .tc := ⟨.hbm, 76, rfl⟩
abbrev main_v17 : Ref sig .tc := ⟨.hbm, 77, rfl⟩
abbrev main_cst_7 : Ref sig .tc := ⟨.hbm, 78, rfl⟩
abbrev main_v18 : Ref sig .tc := ⟨.hbm, 79, rfl⟩
abbrev main_cst_8 : Ref sig .tc := ⟨.hbm, 80, rfl⟩
abbrev main_v19 : Ref sig .tc := ⟨.hbm, 81, rfl⟩
abbrev main_v20 : Ref sig .tc := ⟨.hbm, 82, rfl⟩
abbrev main_cst_9 : Ref sig .tc := ⟨.hbm, 83, rfl⟩
abbrev main_v21 : Ref sig .tc := ⟨.hbm, 84, rfl⟩
abbrev main_cst_10 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_cst_11 : Ref sig .tc := ⟨.hbm, 90, rfl⟩
abbrev main_v26 : Ref sig .tc := ⟨.hbm, 91, rfl⟩
abbrev main_cst_12 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_cst_13 : Ref sig .tc := ⟨.hbm, 99, rfl⟩
abbrev main_v33 : Ref sig .tc := ⟨.hbm, 100, rfl⟩
abbrev main_cst_14 : Ref sig .tc := ⟨.hbm, 101, rfl⟩
abbrev main_v34 : Ref sig .tc := ⟨.hbm, 102, rfl⟩
abbrev main_v35 : Ref sig .tc := ⟨.hbm, 103, rfl⟩
abbrev main_cst_15 : Ref sig .tc := ⟨.hbm, 104, rfl⟩
abbrev main_v36 : Ref sig .tc := ⟨.hbm, 105, rfl⟩
abbrev main_cst_16 : Ref sig .tc := ⟨.hbm, 106, rfl⟩
abbrev main_v37 : Ref sig .tc := ⟨.hbm, 107, rfl⟩
abbrev main_cst_17 : Ref sig .tc := ⟨.hbm, 108, rfl⟩
abbrev main_v38 : Ref sig .tc := ⟨.hbm, 109, rfl⟩
abbrev main_cst_18 : Ref sig .tc := ⟨.hbm, 110, rfl⟩
abbrev main_v39 : Ref sig .tc := ⟨.hbm, 111, rfl⟩
abbrev main_cst_19 : Ref sig .tc := ⟨.hbm, 112, rfl⟩
abbrev main_v40 : Ref sig .tc := ⟨.hbm, 113, rfl⟩
abbrev main_cst_20 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_cst_21 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_cst_22 : Ref sig .tc := ⟨.hbm, 126, rfl⟩
abbrev main_v51 : Ref sig .tc := ⟨.hbm, 127, rfl⟩
abbrev main_v52 : Ref sig .tc := ⟨.hbm, 128, rfl⟩
abbrev main_cst_23 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_cst_24 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_cst_25 : Ref sig .tc := ⟨.hbm, 143, rfl⟩
abbrev main_v65 : Ref sig .tc := ⟨.hbm, 144, rfl⟩
abbrev main_cst_26 : Ref sig .tc := ⟨.hbm, 145, rfl⟩
abbrev main_v66 : Ref sig .tc := ⟨.hbm, 146, rfl⟩
abbrev main_v67 : Ref sig .tc := ⟨.hbm, 147, rfl⟩
abbrev main_cst_27 : Ref sig .tc := ⟨.hbm, 148, rfl⟩
abbrev main_v68 : Ref sig .tc := ⟨.hbm, 149, rfl⟩
abbrev main_v69 : Ref sig .tc := ⟨.hbm, 150, rfl⟩
abbrev main_cst_28 : Ref sig .tc := ⟨.hbm, 151, rfl⟩
abbrev main_v70 : Ref sig .tc := ⟨.hbm, 152, rfl⟩
abbrev main_cst_29 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_cst_30 : Ref sig .tc := ⟨.hbm, 159, rfl⟩
abbrev main_v76 : Ref sig .tc := ⟨.hbm, 160, rfl⟩
abbrev main_cst_31 : Ref sig .tc := ⟨.hbm, 161, rfl⟩
abbrev main_v77 : Ref sig .tc := ⟨.hbm, 162, rfl⟩
abbrev main_cst_32 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_cst_33 : Ref sig .tc := ⟨.hbm, 168, rfl⟩
abbrev main_v82 : Ref sig .tc := ⟨.hbm, 169, rfl⟩
abbrev main_cst_34 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_cst_35 : Ref sig .tc := ⟨.hbm, 175, rfl⟩
abbrev main_v87 : Ref sig .tc := ⟨.hbm, 176, rfl⟩
abbrev main_cst_36 : Ref sig .tc := ⟨.hbm, 177, rfl⟩
abbrev main_v88 : Ref sig .tc := ⟨.hbm, 178, rfl⟩
abbrev main_v89 : Ref sig .tc := ⟨.hbm, 179, rfl⟩
abbrev main_cst_37 : Ref sig .tc := ⟨.hbm, 180, rfl⟩
abbrev main_v90 : Ref sig .tc := ⟨.hbm, 181, rfl⟩
abbrev main_v91 : Ref sig .tc := ⟨.hbm, 182, rfl⟩
abbrev main_cst_38 : Ref sig .tc := ⟨.hbm, 183, rfl⟩
abbrev main_v92 : Ref sig .tc := ⟨.hbm, 184, rfl⟩
abbrev main_v93 : Ref sig .tc := ⟨.hbm, 185, rfl⟩

abbrev nD : Nat := 1
abbrev τ : Topo := Topo.v7x

variable {F : FTy → Type} [FloatOps F]

class Facts₀ : Prop where
  reducesTo_S1024x50000_S1024_d1 : S1024x50000.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x50000_0_1 : S1024x1.BroadcastsInDim S1024x50000 (![0, 1] : Fin 2 → Fin S1024x50000.rank)
  reducesTo_S1024_S_d0 : S1024.ReducesTo [0] S_
  bcast_S_S1024x256 : S_.BroadcastsInDim S1024x256 (![] : Fin 0 → Fin S1024x256.rank)
  reducesTo_S1024x256_S1024_d1 : S1024x256.ReducesTo [1] S1024

variable [Facts₀]

class Facts : Prop extends Facts₀ where

variable [Facts]
-- ==== Proof.BitsTailLines.lean ====
/-
  The host lines that follow the kernel's region in the kernel program as printed, as far as the run of the whole
  program needs them (stated for any float instance).

  The program enters the region at once: no host line precedes it, so every buffer holds its launch contents there.
  After the region come 113 host lines.  Each of them reads and writes whole device buffers; each writes only its own
  result buffer, which is a fresh intermediate of the host program.  Hence (a) none of them allocates, (b) each touches
  only buffers the region has handed back (the seven arrays of the region's windows and the buffers that bypass the
  region), (c) none of them writes one of those seven arrays, and (d) none of them writes one of the ten argument
  arrays, so each argument array still holds its launch contents after the last line.
-/
import proofs.«174350_j48515950576387_2_alg».proof.Proof.Gen.Kernel.Launch
import Idealize.ShloMosaic.Lib.Pipeline.FrameSuffix

set_option maxRecDepth 16384

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window cellOf)

variable {F : FTy → Type} [FloatOps F]

variable (m : (ℓ : Loc nD τ sig) → Buf (Elt F) ℓ)

/-! ## The buffers when the region is entered -/

/-- What core `c`'s buffers hold when the region is entered: no host line comes before the region, so this is the
    launch memory (the empty list of lines applied to it). -/
abbrev entry (c : Dev nD) : Valuation τ sig (Elt F) :=
  StableHlo.after (List.flatten ([] : List (List (HloOp τ sig (Elt F))))) (fun b => m (c, b))

/-- The same read at a TensorCore buffer. -/
abbrev entryAt (c : Dev nD) (b : Ref sig .tc) : Buf (Elt F) ((c : Thread nD τ).loc b) := entry m c (Proc.devRef .tc b)

/-- At the region's entry every buffer is as launched. -/
theorem entryAt_eq (c : Dev nD) (b : Ref sig .tc) : entryAt m c b = m ((c : Thread nD τ).loc b) := rfl

/-! ## The program is the region followed by the 113 lines -/

set_option maxHeartbeats 8000000 in
/-- The whole program, read from the region on: it is the region continued by the host lines. -/
theorem main_from_region (𝒱₀ : Variants) :
    Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [] [hostOps1] (by simp only [List.Forall]) (by simp only [List.Forall]) main_chain

/-! ## What the lines touch -/

/-- No line allocates a buffer. -/
theorem lines_allocate_nothing : (hostOps1 : List (HloOp τ sig (Elt F))).Forall fun op => op.fresh = ∅ := by
  simp only [List.Forall]; repeat' constructor

/-- Each line writes one buffer, and that buffer is none of the seven arrays of the region's windows. -/
theorem lines_write_no_window_array :
    (hostOps1 : List (HloOp τ sig (Elt F))).Forall fun op => ∀ w : Fin 7, Proc.devRef .tc (Pipeline.arrRef spec0 w) ∉ op.writes := by
  simp only [List.Forall, StableHlo.nullary_writes, StableHlo.unary_writes, StableHlo.binary_writes, Finset.mem_singleton]
  repeat' apply And.intro
  all_goals intro w; fin_cases w <;> exact StableHlo.devRef_ne_of_ne (by decide)

/-- The lines stay within the buffers the region hands back. -/
theorem lines_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

/-- They allocate nothing (in the form the run takes it). -/
theorem lines_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp lines_allocate_nothing) op hop

/-- They write no array of the region's windows (in the form the run takes it). -/
theorem lines_keep_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  exact (List.forall_iff_forall_mem.mp lines_write_no_window_array) op hop

/-! ## The argument arrays after the last line -/

/-- A buffer that no line writes and that is no window's array holds, after the lines, what it held at the region's
    entry: its launch contents. -/
theorem kept_after_lines (dats : (p : Fin 1) → (c : Dev nD) → Dat τ (Elt F) Unit ℕ (UR sig nD τ) ℕ (cfgs p) c) (c : Dev nD)
    (b : Ref sig .tc) (hw : ∀ op ∈ (hostOps1 : List (HloOp τ sig (Elt F))), Proc.devRef .tc b ∉ op.writes)
    (hb : ∀ w, Pipeline.arrRef spec0 w ≠ b) :
    Pipeline.afterTail₀ cfgs dats 0 (entry m) [hostOps1] c b = m ((c : Thread nD τ).loc b) := by
  unfold Pipeline.afterTail₀
  rw [show ([hostOps1] : List (List (HloOp τ sig (Elt F)))).flatten = hostOps1 from by
        simp only [List.flatten_cons, List.flatten_nil, List.append_nil],
    StableHlo.after_of_forall_not_mem (b := Proc.devRef .tc b) _ _ hw,
    Pipeline.withArrays_of_ne _ c (entry m c) _ b hb]
  rfl

/-- No line writes an argument array. -/
theorem lines_write_no_argument :
    (hostOps1 : List (HloOp τ sig (Elt F))).Forall fun op =>
      Proc.devRef .tc main_arg2 ∉ op.writes ∧ Proc.devRef .tc main_arg3 ∉ op.writes ∧ Proc.devRef .tc main_arg4 ∉ op.writes
      ∧ Proc.devRef .tc main_arg7 ∉ op.writes ∧ Proc.devRef .tc main_arg8 ∉ op.writes ∧ Proc.devRef .tc main_arg9 ∉ op.writes := by
  simp only [List.Forall, StableHlo.nullary_writes, StableHlo.unary_writes, StableHlo.binary_writes, Finset.mem_singleton]
  repeat' apply And.intro
  all_goals exact StableHlo.devRef_ne_of_ne (by decide)

end Cert.Kernel.Run

end
-- ==== Proof.BitsBody.lean ====
/-
  One run of the kernel body of the kernel program as printed, on whole staging buffers (any float instance).

  The body reads four [32, 50000] blocks — three blocks of logits (windows 0, 1, 2) and one block of weights
  (window 3) — and writes three [32, 1] columns (windows 4, 5, 6), each by ONE store that covers its whole buffer.
  The value stored into window 4 is the weighted log-softmax row mean of the window-0 logits with the window-3
  weights, into window 5 that of the window-1 logits, into window 6 that of the window-2 logits; each is a pure
  function of the two blocks it reads.  The input buffers are only read, so they end as they began.
-/
import proofs.«174350_j48515950576387_2_alg».proof.Proof.Gen.Kernel.Launch
import proofs.«174350_j48515950576387_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is a whole buffer -/

/-- A whole [32, 50000] block. -/
abbrev wholeBlock : Rect S32x50000 := Rect.unit (s := S32x50000) ![0, 0] S32x50000.size inb_S32x50000_S32x50000_0_0
/-- A whole [32, 1] column. -/
abbrev wholeColumn : Rect S32x1 := Rect.unit (s := S32x1) ![0, 0] S32x1.size inb_S32x1_S32x1_0_0

/-! ## What the body leaves in each output buffer -/

/-- Window 4's column after the body: the row means of the window-0 logits `l0` weighted by `x`. -/
def column4 (l0 x : Vec F S32x50000 .f32) : Vec F S32x1 .f32 :=
  View.canon [⟨wholeColumn, k0_pay2 (View.ld x wholeBlock) (View.ld l0 wholeBlock)⟩]

/-- Window 5's column after the body: the row means of the window-1 logits `l1` weighted by `x`. -/
def column5 (l1 x : Vec F S32x50000 .f32) : Vec F S32x1 .f32 :=
  View.canon [⟨wholeColumn, k0_pay3 (View.ld x wholeBlock) (View.ld l1 wholeBlock)⟩]

/-- Window 6's column after the body: the row means of the window-2 logits `l2` weighted by `x`. -/
def column6 (l2 x : Vec F S32x50000 .f32) : Vec F S32x1 .f32 :=
  View.canon [⟨wholeColumn, k0_pay1 (View.ld x wholeBlock) (View.ld l2 wholeBlock)⟩]

/-- One store through the whole column covers the column. -/
theorem column_covered (p : Vec F S32x1 .f32) (y : S32x1.Idx) :
    ∃ pc ∈ ([⟨wholeColumn, p⟩] : List (View.Piece (Elt F) S32x1 .f32)), y ∈ pc.1.set :=
  View.cover_of_tiled [⟨wholeColumn, p⟩] S32x1.size (by rfl) y

/-! ## The body's triple -/

set_option maxHeartbeats 4000000 in
/-- The body, on whole staging buffers holding the logits blocks `l0 l1 l2`, the weights block `x`, and anything in
    the three columns, runs without fault to the continuation, leaving the four input buffers as they were and the
    three columns at `column4 l0 x`, `column5 l1 x`, `column6 l2 x`. -/
theorem body_runs (c : Dev nD) (E : Set ℕ) (i : grid0.Coords) (arg1 : Memref sig .tc .vmem S32x50000 .f32) (harg1 : arg1.IsWhole) (arg2 : Memref sig .tc .vmem S32x50000 .f32) (harg2 : arg2.IsWhole) (arg3 : Memref sig .tc .vmem S32x50000 .f32) (harg3 : arg3.IsWhole) (arg4 : Memref sig .tc .vmem S32x50000 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole)
    (l0 l1 l2 x : Vec F S32x50000 .f32) (K : PUnit → sProp 𝕄) :
    iprop(owns (c : Thread nD τ) arg1 fullShare l0 ∗ owns (c : Thread nD τ) arg2 fullShare l1 ∗ owns (c : Thread nD τ) arg3 fullShare l2
        ∗ owns (c : Thread nD τ) arg4 fullShare x
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare l0 ∗ owns (c : Thread nD τ) arg2 fullShare l1 ∗ owns (c : Thread nD τ) arg3 fullShare l2
            ∗ owns (c : Thread nD τ) arg4 fullShare x
            ∗ owns (c : Thread nD τ) arg5 fullShare (column4 l0 x) ∗ owns (c : Thread nD τ) arg6 fullShare (column5 l1 x)
            ∗ owns (c : Thread nD τ) arg7 fullShare (column6 l2 x)) -∗ K ⟨⟩))
      ⊢ wp frame (wpE (defs₀ (F := F)) Variants.none c none) E (cc0__bce_kernel i arg1 harg1 arg2 harg2 arg3 harg3 arg4 harg4 arg5 harg5 arg6 harg6 arg7 harg7) K := by
  simp only [cc0__bce_kernel_eq_skeleton]; unfold cc0__bce_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (column_covered _)
  isplitl [H6]
  · iexists _; isplitr
    swap; · iexact H6
    ipureintro
    try dsimp only
    exact View.read_writes_eq_canon _ _ _ (column_covered _)
  iexists _; isplitr
  swap; · iexact H7
  ipureintro
  try dsimp only
  exact View.read_writes_eq_canon _ _ _ (column_covered _)

end Cert.Kernel.Run

end
-- ==== Proof.BitsRegionRun.lean ====
/-
  The run of the whole kernel program as printed (any float instance): the region at each of its 32 grid points,
  then the host lines, and from it the frame — the program terminates without fault and its ten argument arrays end as
  launched.

  At grid point `t` window `w`'s block is rows 32·t … 32·t + 31 of its array.  The four input windows (logits
  arrays 0, 5, 6 and the weights array 1) are only read, so after the body each input buffer still holds its block.
  The three output windows hold, after the body, the three columns computed from the logits block and the weights
  block at that point; the pipeline writes each column back to rows 32·t … 32·t + 31 of its [1024, 1] array.  The body
  keeps nothing between points and needs nothing but its seven buffers.
-/
import proofs.«174350_j48515950576387_2_alg».proof.Proof.Gen.Kernel.Points
import proofs.«174350_j48515950576387_2_alg».proof.Proof.BitsTailLines
import proofs.«174350_j48515950576387_2_alg».proof.Proof.BitsBody

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- Input window 0's current staging buffer holds its block at every point, fetched there or not. -/
theorem input0_found_of {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, fetched there or not. -/
theorem input1_found_of {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, fetched there or not. -/
theorem input2_found_of {c : Dev nD} (dat : Dat τ (Elt F) Unit ℕ (UR sig nD τ) ℕ cfg0 c) (hA : dat.A 2 = entryAt m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, fetched there or not. -/
theorem input3_found_of {c : Dev nD} (dat : Dat τ (Elt F) Unit ℕ (UR sig nD τ) ℕ cfg0 c) (hA : dat.A 3 = entryAt m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The proof data of the region -/

/-- On core `c`: the arrays as the region finds them; after the body at point `t` each input buffer at its block
    and each output buffer at its column of the logits block and the weights block; nothing else is needed or owed. -/
def regionData (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => column4 (blockAt m c 0 t) (blockAt m c 3 t)
    | ⟨5, _⟩ => column5 (blockAt m c 1 t) (blockAt m c 3 t)
    | ⟨6, _⟩ => column6 (blockAt m c 2 t) (blockAt m c 3 t)
  Φ _ := Pipeline.ΦA spec0 c
  q _ := fullShare
  owed _ := 0

/-- The proof data's arrays are the region-entry contents. -/
theorem regionData_A (c : Dev nD) (w : Fin cfg0.W) : (regionData m 0 c).A w = entryAt m c (Pipeline.arrRef spec0 w) := by
  dsimp only [regionData]

theorem after_0 (c : Dev nD) (t : Fin cfg0.N) : (regionData m 0 c).after 0 t = blockAt m c 0 t := by dsimp only [regionData]
theorem after_1 (c : Dev nD) (t : Fin cfg0.N) : (regionData m 0 c).after 1 t = blockAt m c 1 t := by dsimp only [regionData]
theorem after_2 (c : Dev nD) (t : Fin cfg0.N) : (regionData m 0 c).after 2 t = blockAt m c 2 t := by dsimp only [regionData]
theorem after_3 (c : Dev nD) (t : Fin cfg0.N) : (regionData m 0 c).after 3 t = blockAt m c 3 t := by dsimp only [regionData]
theorem after_4 (c : Dev nD) (t : Fin cfg0.N) : (regionData m 0 c).after 4 t = column4 (blockAt m c 0 t) (blockAt m c 3 t) := by dsimp only [regionData]
theorem after_5 (c : Dev nD) (t : Fin cfg0.N) : (regionData m 0 c).after 5 t = column5 (blockAt m c 1 t) (blockAt m c 3 t) := by dsimp only [regionData]
theorem after_6 (c : Dev nD) (t : Fin cfg0.N) : (regionData m 0 c).after 6 t = column6 (blockAt m c 2 t) (blockAt m c 3 t) := by dsimp only [regionData]

theorem input0_found (c : Dev nD) (t : Fin cfg0.N) (d) : (regionData m 0 c).before 0 t d = blockAt m c 0 t :=
  input0_found_of m (regionData m 0 c) (regionData_A m c 0) (after_0 m c) t d
theorem input1_found (c : Dev nD) (t : Fin cfg0.N) (d) : (regionData m 0 c).before 1 t d = blockAt m c 1 t :=
  input1_found_of m (regionData m 0 c) (regionData_A m c 1) (after_1 m c) t d
theorem input2_found (c : Dev nD) (t : Fin cfg0.N) (d) : (regionData m 0 c).before 2 t d = blockAt m c 2 t :=
  input2_found_of m (regionData m 0 c) (regionData_A m c 2) (after_2 m c) t d
theorem input3_found (c : Dev nD) (t : Fin cfg0.N) (d) : (regionData m 0 c).before 3 t d = blockAt m c 3 t :=
  input3_found_of m (regionData m 0 c) (regionData_A m c 3) (after_3 m c) t d

/-! ## The body at a generic point -/

/-- What the body is called with at point `t`: its seven buffers, window by window. -/
def pointPre (c : Dev nD) (t : Fin cfg0.N) : sProp 𝕄 :=
  iprop((regionData m 0 c).Φ t.castSucc ∗ (regionData m 0 c).owesAt () t.castSucc
    ∗ (∃ d, owns (c : Thread nD τ) (st0_0 t) fullShare ((regionData m 0 c).before 0 t d))
    ∗ (∃ d, owns (c : Thread nD τ) (st0_1 t) fullShare ((regionData m 0 c).before 1 t d))
    ∗ (∃ d, owns (c : Thread nD τ) (st0_2 t) fullShare ((regionData m 0 c).before 2 t d))
    ∗ (∃ d, owns (c : Thread nD τ) (st0_3 t) fullShare ((regionData m 0 c).before 3 t d))
    ∗ (∃ d, owns (c : Thread nD τ) (st0_4 t) fullShare ((regionData m 0 c).before 4 t d))
    ∗ (∃ d, owns (c : Thread nD τ) (st0_5 t) fullShare ((regionData m 0 c).before 5 t d))
    ∗ (∃ d, owns (c : Thread nD τ) (st0_6 t) fullShare ((regionData m 0 c).before 6 t d)))

/-- What it returns. -/
def pointPost (c : Dev nD) (t : Fin cfg0.N) : sProp 𝕄 :=
  iprop((regionData m 0 c).Φ t.succ ∗ (regionData m 0 c).owesAt () t.succ
    ∗ owns (c : Thread nD τ) (st0_0 t) fullShare ((regionData m 0 c).after 0 t)
    ∗ owns (c : Thread nD τ) (st0_1 t) fullShare ((regionData m 0 c).after 1 t)
    ∗ owns (c : Thread nD τ) (st0_2 t) fullShare ((regionData m 0 c).after 2 t)
    ∗ owns (c : Thread nD τ) (st0_3 t) fullShare ((regionData m 0 c).after 3 t)
    ∗ owns (c : Thread nD τ) (st0_4 t) fullShare ((regionData m 0 c).after 4 t)
    ∗ owns (c : Thread nD τ) (st0_5 t) fullShare ((regionData m 0 c).after 5 t)
    ∗ owns (c : Thread nD τ) (st0_6 t) fullShare ((regionData m 0 c).after 6 t))

/-- The body at any point: the input buffers hold their blocks, so the body's triple applies; the invariant and the
    core's obligations pass through unread. -/
theorem body_at_point (c : Dev nD) (t : Fin cfg0.N) :
    pointPre m c t ⊢ wp frame (wpE (defs₀ (F := F)) Variants.none c none) Set.univ (bodyAt0 t) (fun _ => pointPost m c t) := by
  unfold pointPre pointPost bodyAt0
  simp only [input0_found, input1_found, input2_found, input3_found]
  rw [show (regionData m 0 c).Φ t.succ = (regionData m 0 c).Φ t.castSucc from rfl,
    show (regionData m 0 c).owesAt () t.succ = (regionData m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs c Set.univ (grid0.coords t) _ _ _ _ _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation to the pipeline, at every point. -/
theorem body_obligation (c : Dev nD) : BodyObligation (regionData (F := F) m 0 c) (defs₀ (F := F)) Variants.none () Set.univ := fun t => by
  rw [bigSep_W0, bigSep_W0]
  exact body_at_point m c t

/-! ## The run and the frame -/

set_option maxHeartbeats 16000000 in
set_option backward.isDefEq.respectTransparency.types false in
/-- From any memory with zero counters every weakly fair execution of the program terminates without fault; at the end
    each array of the region's windows holds what the write-backs made of it, and every other unscoped buffer what the
    host lines after the region leave in it. -/
theorem run_main : θ_run defs (onTc (τ := τ) (main (F := F))) (s₀ m ρ)
    (Pipeline.FramePost cfgs (regionData m) 0 (Pipeline.afterTail₀ cfgs (regionData m) 0 (entry m) [hostOps1])) :=
  Pipeline.θ_run_frame_around cfgs (regionData m) (0 : Fin 1) launch0 defs₀ Variants.none m ρ main
    (hbody := fun c => (body_obligation m c).loose) (hshare := fun c => (regionData m 0 c).share_full fun _ => rfl)
    (howed := fun _ _ => rfl) (V₀ := entry m) (opss := [hostOps1]) (hsub := lines_within) (hfresh := lines_fresh) (hkeep := lines_keep_arrays)
    (hmain := main_from_region m Variants.none) (hA := regionData_A m) (hΦ := fun _ _ => rfl)

/-- The six argument arrays that bypass the region are unwritten by the host lines. -/
theorem bypass_kept (c : Dev nD) (b : Ref sig .tc) (hb : ∀ w, Pipeline.arrRef spec0 w ≠ b)
    (hw : ∀ op ∈ (hostOps1 : List (HloOp τ sig (Elt F))), Proc.devRef .tc b ∉ op.writes) :
    Pipeline.afterTail₀ cfgs (regionData m) 0 (entry m) [hostOps1] c b = m ((c : Thread nD τ).loc b) :=
  kept_after_lines m (regionData m) c b hw hb

/-- THE FRAME: the program terminates without fault and its ten argument arrays end as launched — the four staged
    ones because an input window's array is never written, the six others because no host line writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    have hw := fun op hop => (List.forall_iff_forall_mem.mp (lines_write_no_argument (F := F))) op hop
    ⟨((h c).1 0).trans (((regionData m 0 c).arrAt_in 0 rfl _).trans ((regionData_A m c 0).trans (entryAt_eq m c main_arg0))),
     ((h c).1 3).trans (((regionData m 0 c).arrAt_in 3 rfl _).trans ((regionData_A m c 3).trans (entryAt_eq m c main_arg1))),
     ((h c).2 main_arg2 (Pipeline.mem_restRefs_of main_arg2 (by decide) (by decide))).trans
       (bypass_kept m c main_arg2 (by decide) (fun op hop => (hw op hop).1)),
     ((h c).2 main_arg3 (Pipeline.mem_restRefs_of main_arg3 (by decide) (by decide))).trans
       (bypass_kept m c main_arg3 (by decide) (fun op hop => (hw op hop).2.1)),
     ((h c).2 main_arg4 (Pipeline.mem_restRefs_of main_arg4 (by decide) (by decide))).trans
       (bypass_kept m c main_arg4 (by decide) (fun op hop => (hw op hop).2.2.1)),
     ((h c).1 1).trans (((regionData m 0 c).arrAt_in 1 rfl _).trans ((regionData_A m c 1).trans (entryAt_eq m c main_arg5))),
     ((h c).1 2).trans (((regionData m 0 c).arrAt_in 2 rfl _).trans ((regionData_A m c 2).trans (entryAt_eq m c main_arg6))),
     ((h c).2 main_arg7 (Pipeline.mem_restRefs_of main_arg7 (by decide) (by decide))).trans
       (bypass_kept m c main_arg7 (by decide) (fun op hop => (hw op hop).2.2.2.1)),
     ((h c).2 main_arg8 (Pipeline.mem_restRefs_of main_arg8 (by decide) (by decide))).trans
       (bypass_kept m c main_arg8 (by decide) (fun op hop => (hw op hop).2.2.2.2.1)),
     ((h c).2 main_arg9 (Pipeline.mem_restRefs_of main_arg9 (by decide) (by decide))).trans
       (bypass_kept m c main_arg9 (by decide) (fun op hop => (hw op hop).2.2.2.2.2))⟩)
    (run_main m ρ)

end Cert.Kernel.Run

end
-- ==== Proof.IdealTailLines.lean ====
/-
  The host lines that follow the kernel's region in the idealized kernel program, as far as the run of the whole
  program needs them (stated for any float instance).

  The program enters the region at once: no host line precedes it, so every buffer holds its launch contents there.
  After the region come 113 host lines.  Each of them reads and writes whole device buffers; each writes only its own
  result buffer, which is a fresh intermediate of the host program.  Hence (a) none of them allocates, (b) each touches
  only buffers the region has handed back (the seven arrays of the region's windows and the buffers that bypass the
  region), (c) none of them writes one of those seven arrays, and (d) none of them writes one of the ten argument
  arrays, so each argument array still holds its launch contents after the last line.
-/
import proofs.«174350_j48515950576387_2_alg».proof.Proof.Gen.KernelIdeal.Launch
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window cellOf)

variable {F : FTy → Type} [FloatOps F]

variable (m : (ℓ : Loc nD τ sig) → Buf (Elt F) ℓ)

/-! ## The buffers when the region is entered -/

/-- What core `c`'s buffers hold when the region is entered: no host line comes before the region, so this is the
    launch memory (the empty list of lines applied to it). -/
abbrev entry (c : Dev nD) : Valuation τ sig (Elt F) :=
  StableHlo.after (List.flatten ([] : List (List (HloOp τ sig (Elt F))))) (fun b => m (c, b))

/-- The same read at a TensorCore buffer. -/
abbrev entryAt (c : Dev nD) (b : Ref sig .tc) : Buf (Elt F) ((c : Thread nD τ).loc b) := entry m c (Proc.devRef .tc b)

/-- At the region's entry every buffer is as launched. -/
theorem entryAt_eq (c : Dev nD) (b : Ref sig .tc) : entryAt m c b = m ((c : Thread nD τ).loc b) := rfl

/-! ## The program is the region followed by the 113 lines -/

set_option maxHeartbeats 8000000 in
/-- The whole program, read from the region on: it is the region continued by the host lines. -/
theorem main_from_region (𝒱₀ : Variants) :
    Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [] [hostOps1] (by simp only [List.Forall]) (by simp only [List.Forall]) main_chain

/-! ## What the lines touch -/

/-- No line allocates a buffer. -/
theorem lines_allocate_nothing : (hostOps1 : List (HloOp τ sig (Elt F))).Forall fun op => op.fresh = ∅ := by
  simp only [List.Forall]; repeat' constructor

/-- Each line writes one buffer, and that buffer is none of the seven arrays of the region's windows. -/
theorem lines_write_no_window_array :
    (hostOps1 : List (HloOp τ sig (Elt F))).Forall fun op => ∀ w : Fin 7, Proc.devRef .tc (Pipeline.arrRef spec0 w) ∉ op.writes := by
  simp only [List.Forall, StableHlo.nullary_writes, StableHlo.unary_writes, StableHlo.binary_writes, Finset.mem_singleton]
  repeat' apply And.intro
  all_goals intro w; fin_cases w <;> exact StableHlo.devRef_ne_of_ne (by decide)

/-- The lines stay within the buffers the region hands back. -/
theorem lines_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

/-- They allocate nothing (in the form the run takes it). -/
theorem lines_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp lines_allocate_nothing) op hop

/-- They write no array of the region's windows (in the form the run takes it). -/
theorem lines_keep_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  exact (List.forall_iff_forall_mem.mp lines_write_no_window_array) op hop

/-! ## The argument arrays after the last line -/

/-- A buffer that no line writes and that is no window's array holds, after the lines, what it held at the region's
    entry: its launch contents. -/
theorem kept_after_lines (dats : (p : Fin 1) → (c : Dev nD) → Dat τ (Elt F) Unit ℕ (UR sig nD τ) ℕ (cfgs p) c) (c : Dev nD)
    (b : Ref sig .tc) (hw : ∀ op ∈ (hostOps1 : List (HloOp τ sig (Elt F))), Proc.devRef .tc b ∉ op.writes)
    (hb : ∀ w, Pipeline.arrRef spec0 w ≠ b) :
    Pipeline.afterTail₀ cfgs dats 0 (entry m) [hostOps1] c b = m ((c : Thread nD τ).loc b) := by
  unfold Pipeline.afterTail₀
  rw [show ([hostOps1] : List (List (HloOp τ sig (Elt F)))).flatten = hostOps1 from by
        simp only [List.flatten_cons, List.flatten_nil, List.append_nil],
    StableHlo.after_of_forall_not_mem (b := Proc.devRef .tc b) _ _ hw,
    Pipeline.withArrays_of_ne _ c (entry m c) _ b hb]
  rfl

/-- No line writes an argument array. -/
theorem lines_write_no_argument :
    (hostOps1 : List (HloOp τ sig (Elt F))).Forall fun op =>
      Proc.devRef .tc main_arg2 ∉ op.writes ∧ Proc.devRef .tc main_arg3 ∉ op.writes ∧ Proc.devRef .tc main_arg4 ∉ op.writes
      ∧ Proc.devRef .tc main_arg7 ∉ op.writes ∧ Proc.devRef .tc main_arg8 ∉ op.writes ∧ Proc.devRef .tc main_arg9 ∉ op.writes := by
  simp only [List.Forall, StableHlo.nullary_writes, StableHlo.unary_writes, StableHlo.binary_writes, Finset.mem_singleton]
  repeat' apply And.intro
  all_goals exact StableHlo.devRef_ne_of_ne (by decide)

end Cert.KernelIdeal.Run

end
-- ==== Proof.IdealBody.lean ====
/-
  One run of the kernel body of the idealized kernel program, on whole staging buffers (any float instance).

  The body reads four [32, 50000] blocks — three blocks of logits (windows 0, 1, 2) and one block of weights
  (window 3) — and writes three [32, 1] columns (windows 4, 5, 6), each by ONE store that covers its whole buffer.
  The value stored into window 4 is the weighted log-softmax row mean of the window-0 logits with the window-3
  weights, into window 5 that of the window-1 logits, into window 6 that of the window-2 logits; each is a pure
  function of the two blocks it reads.  The input buffers are only read, so they end as they began.
-/
import proofs.«174350_j48515950576387_2_alg».proof.Proof.Gen.KernelIdeal.Launch
import proofs.«174350_j48515950576387_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is a whole buffer -/

/-- A whole [32, 50000] block. -/
abbrev wholeBlock : Rect S32x50000 := Rect.unit (s := S32x50000) ![0, 0] S32x50000.size inb_S32x50000_S32x50000_0_0
/-- A whole [32, 1] column. -/
abbrev wholeColumn : Rect S32x1 := Rect.unit (s := S32x1) ![0, 0] S32x1.size inb_S32x1_S32x1_0_0

/-! ## What the body leaves in each output buffer -/

/-- Window 4's column after the body: the row means of the window-0 logits `l0` weighted by `x`. -/
def column4 (l0 x : Vec F S32x50000 .f32) : Vec F S32x1 .f32 :=
  View.canon [⟨wholeColumn, k0_pay2 (View.ld x wholeBlock) (View.ld l0 wholeBlock)⟩]

/-- Window 5's column after the body: the row means of the window-1 logits `l1` weighted by `x`. -/
def column5 (l1 x : Vec F S32x50000 .f32) : Vec F S32x1 .f32 :=
  View.canon [⟨wholeColumn, k0_pay3 (View.ld x wholeBlock) (View.ld l1 wholeBlock)⟩]

/-- Window 6's column after the body: the row means of the window-2 logits `l2` weighted by `x`. -/
def column6 (l2 x : Vec F S32x50000 .f32) : Vec F S32x1 .f32 :=
  View.canon [⟨wholeColumn, k0_pay1 (View.ld x wholeBlock) (View.ld l2 wholeBlock)⟩]

/-- One store through the whole column covers the column. -/
theorem column_covered (p : Vec F S32x1 .f32) (y : S32x1.Idx) :
    ∃ pc ∈ ([⟨wholeColumn, p⟩] : List (View.Piece (Elt F) S32x1 .f32)), y ∈ pc.1.set :=
  View.cover_of_tiled [⟨wholeColumn, p⟩] S32x1.size (by rfl) y

/-! ## The body's triple -/

set_option maxHeartbeats 4000000 in
/-- The body, on whole staging buffers holding the logits blocks `l0 l1 l2`, the weights block `x`, and anything in
    the three columns, runs without fault to the continuation, leaving the four input buffers as they were and the
    three columns at `column4 l0 x`, `column5 l1 x`, `column6 l2 x`. -/
theorem body_runs (c : Dev nD) (E : Set ℕ) (i : grid0.Coords) (arg1 : Memref sig .tc .vmem S32x50000 .f32) (harg1 : arg1.IsWhole) (arg2 : Memref sig .tc .vmem S32x50000 .f32) (harg2 : arg2.IsWhole) (arg3 : Memref sig .tc .vmem S32x50000 .f32) (harg3 : arg3.IsWhole) (arg4 : Memref sig .tc .vmem S32x50000 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole)
    (l0 l1 l2 x : Vec F S32x50000 .f32) (K : PUnit → sProp 𝕄) :
    iprop(owns (c : Thread nD τ) arg1 fullShare l0 ∗ owns (c : Thread nD τ) arg2 fullShare l1 ∗ owns (c : Thread nD τ) arg3 fullShare l2
        ∗ owns (c : Thread nD τ) arg4 fullShare x
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare l0 ∗ owns (c : Thread nD τ) arg2 fullShare l1 ∗ owns (c : Thread nD τ) arg3 fullShare l2
            ∗ owns (c : Thread nD τ) arg4 fullShare x
            ∗ owns (c : Thread nD τ) arg5 fullShare (column4 l0 x) ∗ owns (c : Thread nD τ) arg6 fullShare (column5 l1 x)
            ∗ owns (c : Thread nD τ) arg7 fullShare (column6 l2 x)) -∗ K ⟨⟩))
      ⊢ wp frame (wpE (defs₀ (F := F)) Variants.none c none) E (cc0__bce_kernel i arg1 harg1 arg2 harg2 arg3 harg3 arg4 harg4 arg5 harg5 arg6 harg6 arg7 harg7) K := by
  simp only [cc0__bce_kernel_eq_skeleton]; unfold cc0__bce_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (column_covered _)
  isplitl [H6]
  · iexists _; isplitr
    swap; · iexact H6
    ipureintro
    try dsimp only
    exact View.read_writes_eq_canon _ _ _ (column_covered _)
  iexists _; isplitr
  swap; · iexact H7
  ipureintro
  try dsimp only
  exact View.read_writes_eq_canon _ _ _ (column_covered _)

end Cert.KernelIdeal.Run

end
-- ==== Proof.IdealRegionRun.lean ====
/-
  The run of the whole idealized kernel program (any float instance): the region at each of its 32 grid points,
  then the host lines, and from it the frame — the program terminates without fault and its ten argument arrays end as
  launched.

  At grid point `t` window `w`'s block is rows 32·t … 32·t + 31 of its array.  The four input windows (logits
  arrays 0, 5, 6 and the weights array 1) are only read, so after the body each input buffer still holds its block.
  The three output windows hold, after the body, the three columns computed from the logits block and the weights
  block at that point; the pipeline writes each column back to rows 32·t … 32·t + 31 of its [1024, 1] array.  The body
  keeps nothing between points and needs nothing but its seven buffers.
-/
import proofs.«174350_j48515950576387_2_alg».proof.Proof.Gen.KernelIdeal.Points
import proofs.«174350_j48515950576387_2_alg».proof.Proof.IdealTailLines
import proofs.«174350_j48515950576387_2_alg».proof.Proof.IdealBody

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- Input window 0's current staging buffer holds its block at every point, fetched there or not. -/
theorem input0_found_of {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, fetched there or not. -/
theorem input1_found_of {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, fetched there or not. -/
theorem input2_found_of {c : Dev nD} (dat : Dat τ (Elt F) Unit ℕ (UR sig nD τ) ℕ cfg0 c) (hA : dat.A 2 = entryAt m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, fetched there or not. -/
theorem input3_found_of {c : Dev nD} (dat : Dat τ (Elt F) Unit ℕ (UR sig nD τ) ℕ cfg0 c) (hA : dat.A 3 = entryAt m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The proof data of the region -/

/-- On core `c`: the arrays as the region finds them; after the body at point `t` each input buffer at its block
    and each output buffer at its column of the logits block and the weights block; nothing else is needed or owed. -/
def regionData (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => column4 (blockAt m c 0 t) (blockAt m c 3 t)
    | ⟨5, _⟩ => column5 (blockAt m c 1 t) (blockAt m c 3 t)
    | ⟨6, _⟩ => column6 (blockAt m c 2 t) (blockAt m c 3 t)
  Φ _ := Pipeline.ΦA spec0 c
  q _ := fullShare
  owed _ := 0

/-- The proof data's arrays are the region-entry contents. -/
theorem regionData_A (c : Dev nD) (w : Fin cfg0.W) : (regionData m 0 c).A w = entryAt m c (Pipeline.arrRef spec0 w) := by
  dsimp only [regionData]

theorem after_0 (c : Dev nD) (t : Fin cfg0.N) : (regionData m 0 c).after 0 t = blockAt m c 0 t := by dsimp only [regionData]
theorem after_1 (c : Dev nD) (t : Fin cfg0.N) : (regionData m 0 c).after 1 t = blockAt m c 1 t := by dsimp only [regionData]
theorem after_2 (c : Dev nD) (t : Fin cfg0.N) : (regionData m 0 c).after 2 t = blockAt m c 2 t := by dsimp only [regionData]
theorem after_3 (c : Dev nD) (t : Fin cfg0.N) : (regionData m 0 c).after 3 t = blockAt m c 3 t := by dsimp only [regionData]
theorem after_4 (c : Dev nD) (t : Fin cfg0.N) : (regionData m 0 c).after 4 t = column4 (blockAt m c 0 t) (blockAt m c 3 t) := by dsimp only [regionData]
theorem after_5 (c : Dev nD) (t : Fin cfg0.N) : (regionData m 0 c).after 5 t = column5 (blockAt m c 1 t) (blockAt m c 3 t) := by dsimp only [regionData]
theorem after_6 (c : Dev nD) (t : Fin cfg0.N) : (regionData m 0 c).after 6 t = column6 (blockAt m c 2 t) (blockAt m c 3 t) := by dsimp only [regionData]

theorem input0_found (c : Dev nD) (t : Fin cfg0.N) (d) : (regionData m 0 c).before 0 t d = blockAt m c 0 t :=
  input0_found_of m (regionData m 0 c) (regionData_A m c 0) (after_0 m c) t d
theorem input1_found (c : Dev nD) (t : Fin cfg0.N) (d) : (regionData m 0 c).before 1 t d = blockAt m c 1 t :=
  input1_found_of m (regionData m 0 c) (regionData_A m c 1) (after_1 m c) t d
theorem input2_found (c : Dev nD) (t : Fin cfg0.N) (d) : (regionData m 0 c).before 2 t d = blockAt m c 2 t :=
  input2_found_of m (regionData m 0 c) (regionData_A m c 2) (after_2 m c) t d
theorem input3_found (c : Dev nD) (t : Fin cfg0.N) (d) : (regionData m 0 c).before 3 t d = blockAt m c 3 t :=
  input3_found_of m (regionData m 0 c) (regionData_A m c 3) (after_3 m c) t d

/-! ## The body at a generic point -/

/-- What the body is called with at point `t`: its seven buffers, window by window. -/
def pointPre (c : Dev nD) (t : Fin cfg0.N) : sProp 𝕄 :=
  iprop((regionData m 0 c).Φ t.castSucc ∗ (regionData m 0 c).owesAt () t.castSucc
    ∗ (∃ d, owns (c : Thread nD τ) (st0_0 t) fullShare ((regionData m 0 c).before 0 t d))
    ∗ (∃ d, owns (c : Thread nD τ) (st0_1 t) fullShare ((regionData m 0 c).before 1 t d))
    ∗ (∃ d, owns (c : Thread nD τ) (st0_2 t) fullShare ((regionData m 0 c).before 2 t d))
    ∗ (∃ d, owns (c : Thread nD τ) (st0_3 t) fullShare ((regionData m 0 c).before 3 t d))
    ∗ (∃ d, owns (c : Thread nD τ) (st0_4 t) fullShare ((regionData m 0 c).before 4 t d))
    ∗ (∃ d, owns (c : Thread nD τ) (st0_5 t) fullShare ((regionData m 0 c).before 5 t d))
    ∗ (∃ d, owns (c : Thread nD τ) (st0_6 t) fullShare ((regionData m 0 c).before 6 t d)))

/-- What it returns. -/
def pointPost (c : Dev nD) (t : Fin cfg0.N) : sProp 𝕄 :=
  iprop((regionData m 0 c).Φ t.succ ∗ (regionData m 0 c).owesAt () t.succ
    ∗ owns (c : Thread nD τ) (st0_0 t) fullShare ((regionData m 0 c).after 0 t)
    ∗ owns (c : Thread nD τ) (st0_1 t) fullShare ((regionData m 0 c).after 1 t)
    ∗ owns (c : Thread nD τ) (st0_2 t) fullShare ((regionData m 0 c).after 2 t)
    ∗ owns (c : Thread nD τ) (st0_3 t) fullShare ((regionData m 0 c).after 3 t)
    ∗ owns (c : Thread nD τ) (st0_4 t) fullShare ((regionData m 0 c).after 4 t)
    ∗ owns (c : Thread nD τ) (st0_5 t) fullShare ((regionData m 0 c).after 5 t)
    ∗ owns (c : Thread nD τ) (st0_6 t) fullShare ((regionData m 0 c).after 6 t))

/-- The body at any point: the input buffers hold their blocks, so the body's triple applies; the invariant and the
    core's obligations pass through unread. -/
theorem body_at_point (c : Dev nD) (t : Fin cfg0.N) :
    pointPre m c t ⊢ wp frame (wpE (defs₀ (F := F)) Variants.none c none) Set.univ (bodyAt0 t) (fun _ => pointPost m c t) := by
  unfold pointPre pointPost bodyAt0
  simp only [input0_found, input1_found, input2_found, input3_found]
  rw [show (regionData m 0 c).Φ t.succ = (regionData m 0 c).Φ t.castSucc from rfl,
    show (regionData m 0 c).owesAt () t.succ = (regionData m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs c Set.univ (grid0.coords t) _ _ _ _ _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation to the pipeline, at every point. -/
theorem body_obligation (c : Dev nD) : BodyObligation (regionData (F := F) m 0 c) (defs₀ (F := F)) Variants.none () Set.univ := fun t => by
  rw [bigSep_W0, bigSep_W0]
  exact body_at_point m c t

/-! ## The run and the frame -/

set_option maxHeartbeats 16000000 in
set_option backward.isDefEq.respectTransparency.types false in
/-- From any memory with zero counters every weakly fair execution of the program terminates without fault; at the end
    each array of the region's windows holds what the write-backs made of it, and every other unscoped buffer what the
    host lines after the region leave in it. -/
theorem run_main : θ_run defs (onTc (τ := τ) (main (F := F))) (s₀ m ρ)
    (Pipeline.FramePost cfgs (regionData m) 0 (Pipeline.afterTail₀ cfgs (regionData m) 0 (entry m) [hostOps1])) :=
  Pipeline.θ_run_frame_around cfgs (regionData m) (0 : Fin 1) launch0 defs₀ Variants.none m ρ main
    (hbody := fun c => (body_obligation m c).loose) (hshare := fun c => (regionData m 0 c).share_full fun _ => rfl)
    (howed := fun _ _ => rfl) (V₀ := entry m) (opss := [hostOps1]) (hsub := lines_within) (hfresh := lines_fresh) (hkeep := lines_keep_arrays)
    (hmain := main_from_region m Variants.none) (hA := regionData_A m) (hΦ := fun _ _ => rfl)

/-- The six argument arrays that bypass the region are unwritten by the host lines. -/
theorem bypass_kept (c : Dev nD) (b : Ref sig .tc) (hb : ∀ w, Pipeline.arrRef spec0 w ≠ b)
    (hw : ∀ op ∈ (hostOps1 : List (HloOp τ sig (Elt F))), Proc.devRef .tc b ∉ op.writes) :
    Pipeline.afterTail₀ cfgs (regionData m) 0 (entry m) [hostOps1] c b = m ((c : Thread nD τ).loc b) :=
  kept_after_lines m (regionData m) c b hw hb

/-- THE FRAME: the program terminates without fault and its ten argument arrays end as launched — the four staged
    ones because an input window's array is never written, the six others because no host line writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    have hw := fun op hop => (List.forall_iff_forall_mem.mp (lines_write_no_argument (F := F))) op hop
    ⟨((h c).1 0).trans (((regionData m 0 c).arrAt_in 0 rfl _).trans ((regionData_A m c 0).trans (entryAt_eq m c main_arg0))),
     ((h c).1 3).trans (((regionData m 0 c).arrAt_in 3 rfl _).trans ((regionData_A m c 3).trans (entryAt_eq m c main_arg1))),
     ((h c).2 main_arg2 (Pipeline.mem_restRefs_of main_arg2 (by decide) (by decide))).trans
       (bypass_kept m c main_arg2 (by decide) (fun op hop => (hw op hop).1)),
     ((h c).2 main_arg3 (Pipeline.mem_restRefs_of main_arg3 (by decide) (by decide))).trans
       (bypass_kept m c main_arg3 (by decide) (fun op hop => (hw op hop).2.1)),
     ((h c).2 main_arg4 (Pipeline.mem_restRefs_of main_arg4 (by decide) (by decide))).trans
       (bypass_kept m c main_arg4 (by decide) (fun op hop => (hw op hop).2.2.1)),
     ((h c).1 1).trans (((regionData m 0 c).arrAt_in 1 rfl _).trans ((regionData_A m c 1).trans (entryAt_eq m c main_arg5))),
     ((h c).1 2).trans (((regionData m 0 c).arrAt_in 2 rfl _).trans ((regionData_A m c 2).trans (entryAt_eq m c main_arg6))),
     ((h c).2 main_arg7 (Pipeline.mem_restRefs_of main_arg7 (by decide) (by decide))).trans
       (bypass_kept m c main_arg7 (by decide) (fun op hop => (hw op hop).2.2.2.1)),
     ((h c).2 main_arg8 (Pipeline.mem_restRefs_of main_arg8 (by decide) (by decide))).trans
       (bypass_kept m c main_arg8 (by decide) (fun op hop => (hw op hop).2.2.2.2.1)),
     ((h c).2 main_arg9 (Pipeline.mem_restRefs_of main_arg9 (by decide) (by decide))).trans
       (bypass_kept m c main_arg9 (by decide) (fun op hop => (hw op hop).2.2.2.2.2))⟩)
    (run_main m ρ)

end Cert.KernelIdeal.Run

end
-- ==== Proof.IdealColumns.lean ====
/-
  The three [1024, 1] arrays the region of the idealized kernel program leaves, each as ONE function of the
  argument arrays (any float instance).

  The grid has 32 points; at point `t` every window's block is rows 32·t … 32·t + 31 of its array (all columns).
  So row `r` of an output array is written exactly once, at point r / 32, from entry r % 32 of the column the body
  computed there: the body's stored value for the logits block and the weights block of point r / 32.  And entry
  (p, j) of an input block at point `t` is entry (32·t + p, j) of the input array.
-/
import proofs.«174350_j48515950576387_2_alg».proof.Proof.IdealRegionRun
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

theorem zero2 : (![0, 0] : Fin 2 → Nat) = fun _ => 0 := funext fun a => by fin_cases a <;> rfl

/-- The printed index maps, decided over the grid: along the rows every window's block index is the point itself, along
    the columns it is 0. -/
theorem window_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The grid point whose block holds row `i₀` of a [1024, 1] array. -/
def pointOfRow (i : S1024x1.Idx) : Fin cfg0.N :=
  ⟨(i 0).val / 32, by have hi : (i 0).val < 1024 := (i 0).isLt; have hN : cfg0.N = 32 := N_0; omega⟩

/-- That row's place inside the block. -/
def inBlockRow (i : S1024x1.Idx) : Fin 32 := ⟨(i 0).val % 32, Nat.mod_lt _ (by decide)⟩

/-! ## The input blocks read off the argument arrays -/

/-- Entry (p, j) of input window 0's block at point `t` is entry (32·t + p, j) of its array as launched. -/
theorem block0_entry (c : Dev nD) (t : Fin cfg0.N) (p : Fin 32) (j : Fin 50000) (hr : 32 * t.val + p.val < 1024) :
    blockAt m c 0 t (ix2 p j) = m ((c : Thread nD τ).loc main_arg0) (ix2 (⟨32 * t.val + p.val, hr⟩ : Fin 1024) j) := by
  obtain ⟨e00, e01, e10, e11, e20, e21, e30, e31, -, -, -, -, -, -⟩ := window_indices t
  unfold blockAt
  rw [View.read_apply]
  show m ((c : Thread nD τ).loc main_arg0) (((cfg0.win 0).blk t).view.emb (ix2 p j)) = _
  refine congrArg (m ((c : Thread nD τ).loc main_arg0)) ?_
  funext a; apply Fin.ext
  match a with
  | ⟨0, _⟩ => show win0_0.index t (0 : Fin 2) * 32 + 1 * p.val = 32 * t.val + p.val; omega
  | ⟨1, _⟩ => show win0_0.index t (1 : Fin 2) * 50000 + 1 * j.val = j.val; omega

/-- Entry (p, j) of input window 1's block at point `t` is entry (32·t + p, j) of its array as launched. -/
theorem block1_entry (c : Dev nD) (t : Fin cfg0.N) (p : Fin 32) (j : Fin 50000) (hr : 32 * t.val + p.val < 1024) :
    blockAt m c 1 t (ix2 p j) = m ((c : Thread nD τ).loc main_arg5) (ix2 (⟨32 * t.val + p.val, hr⟩ : Fin 1024) j) := by
  obtain ⟨e00, e01, e10, e11, e20, e21, e30, e31, -, -, -, -, -, -⟩ := window_indices t
  unfold blockAt
  rw [View.read_apply]
  show m ((c : Thread nD τ).loc main_arg5) (((cfg0.win 1).blk t).view.emb (ix2 p j)) = _
  refine congrArg (m ((c : Thread nD τ).loc main_arg5)) ?_
  funext a; apply Fin.ext
  match a with
  | ⟨0, _⟩ => show win0_1.index t (0 : Fin 2) * 32 + 1 * p.val = 32 * t.val + p.val; omega
  | ⟨1, _⟩ => show win0_1.index t (1 : Fin 2) * 50000 + 1 * j.val = j.val; omega

/-- Entry (p, j) of input window 2's block at point `t` is entry (32·t + p, j) of its array as launched. -/
theorem block2_entry (c : Dev nD) (t : Fin cfg0.N) (p : Fin 32) (j : Fin 50000) (hr : 32 * t.val + p.val < 1024) :
    blockAt m c 2 t (ix2 p j) = m ((c : Thread nD τ).loc main_arg6) (ix2 (⟨32 * t.val + p.val, hr⟩ : Fin 1024) j) := by
  obtain ⟨e00, e01, e10, e11, e20, e21, e30, e31, -, -, -, -, -, -⟩ := window_indices t
  unfold blockAt
  rw [View.read_apply]
  show m ((c : Thread nD τ).loc main_arg6) (((cfg0.win 2).blk t).view.emb (ix2 p j)) = _
  refine congrArg (m ((c : Thread nD τ).loc main_arg6)) ?_
  funext a; apply Fin.ext
  match a with
  | ⟨0, _⟩ => show win0_2.index t (0 : Fin 2) * 32 + 1 * p.val = 32 * t.val + p.val; omega
  | ⟨1, _⟩ => show win0_2.index t (1 : Fin 2) * 50000 + 1 * j.val = j.val; omega

/-- Entry (p, j) of input window 3's block at point `t` is entry (32·t + p, j) of its array as launched. -/
theorem block3_entry (c : Dev nD) (t : Fin cfg0.N) (p : Fin 32) (j : Fin 50000) (hr : 32 * t.val + p.val < 1024) :
    blockAt m c 3 t (ix2 p j) = m ((c : Thread nD τ).loc main_arg1) (ix2 (⟨32 * t.val + p.val, hr⟩ : Fin 1024) j) := by
  obtain ⟨e00, e01, e10, e11, e20, e21, e30, e31, -, -, -, -, -, -⟩ := window_indices t
  unfold blockAt
  rw [View.read_apply]
  show m ((c : Thread nD τ).loc main_arg1) (((cfg0.win 3).blk t).view.emb (ix2 p j)) = _
  refine congrArg (m ((c : Thread nD τ).loc main_arg1)) ?_
  funext a; apply Fin.ext
  match a with
  | ⟨0, _⟩ => show win0_3.index t (0 : Fin 2) * 32 + 1 * p.val = 32 * t.val + p.val; omega
  | ⟨1, _⟩ => show win0_3.index t (1 : Fin 2) * 50000 + 1 * j.val = j.val; omega

/-! ## The output arrays -/

/-- Output window 4's array after the run: row `r` holds entry r % 32 of the value the body stores at point r / 32,
    computed from the weights block and the window-0 logits block there. -/
def colArray4 (c : Dev nD) : S1024x1.Idx → Elt F .f32 := fun i =>
  k0_pay2 (blockAt m c 3 (pointOfRow i)) (blockAt m c 0 (pointOfRow i)) (ix2 (inBlockRow i) (0 : Fin 1))

/-- Output window 5's array after the run, from the window-1 logits. -/
def colArray5 (c : Dev nD) : S1024x1.Idx → Elt F .f32 := fun i =>
  k0_pay3 (blockAt m c 3 (pointOfRow i)) (blockAt m c 1 (pointOfRow i)) (ix2 (inBlockRow i) (0 : Fin 1))

/-- Output window 6's array after the run, from the window-2 logits. -/
def colArray6 (c : Dev nD) : S1024x1.Idx → Elt F .f32 := fun i =>
  k0_pay1 (blockAt m c 3 (pointOfRow i)) (blockAt m c 2 (pointOfRow i)) (ix2 (inBlockRow i) (0 : Fin 1))

/-- Where entry `y` of output window 4's block at point `t` sits in the [1024, 1] array: row 32·t + y₀, column 0. -/
theorem out4_place (t : Fin cfg0.N) (y : S32x1.Idx) :
    (((cfg0.win 4).blk t).view.emb y 0).val = 32 * t.val + (y 0).val := by
  obtain ⟨-, -, -, -, -, -, -, -, e40, e41, e50, e51, e60, e61⟩ := window_indices t
  show win0_4.index t (0 : Fin 2) * 32 + 1 * (y 0).val = _
  omega

/-- Where entry `y` of output window 5's block at point `t` sits in the [1024, 1] array: row 32·t + y₀, column 0. -/
theorem out5_place (t : Fin cfg0.N) (y : S32x1.Idx) :
    (((cfg0.win 5).blk t).view.emb y 0).val = 32 * t.val + (y 0).val := by
  obtain ⟨-, -, -, -, -, -, -, -, e40, e41, e50, e51, e60, e61⟩ := window_indices t
  show win0_5.index t (0 : Fin 2) * 32 + 1 * (y 0).val = _
  omega

/-- Where entry `y` of output window 6's block at point `t` sits in the [1024, 1] array: row 32·t + y₀, column 0. -/
theorem out6_place (t : Fin cfg0.N) (y : S32x1.Idx) :
    (((cfg0.win 6).blk t).view.emb y 0).val = 32 * t.val + (y 0).val := by
  obtain ⟨-, -, -, -, -, -, -, -, e40, e41, e50, e51, e60, e61⟩ := window_indices t
  show win0_6.index t (0 : Fin 2) * 32 + 1 * (y 0).val = _
  omega

/-- WHAT POINT `t` WRITES BACK into output window 4 is block `t` of `colArray4`. -/
theorem written4 (c : Dev nD) (t : Fin cfg0.N) :
    (regionData m 0 c).flushed 4 t = ((cfg0.win 4).blk t).view.read (Elt F) (colArray4 m c) := by
  show (cfg0.win 4).cut (grid0.coords t) ((regionData m 0 c).after 4 t) = _
  rw [after_4]
  unfold column4
  rw [View.canon_unit_zero zero2]
  simp only [View.ld_unit_zero (S := S32x50000) zero2]
  funext y
  show k0_pay2 (blockAt m c 3 t) (blockAt m c 0 t) y = colArray4 m c (((cfg0.win 4).blk t).view.emb y)
  have hy0 : (y 0).val < 32 := (y 0).isLt
  have hy1 : (y 1).val < 1 := (y 1).isLt
  have ht : t.val < 32 := by have := t.isLt; have hN : cfg0.N = 32 := N_0; omega
  have hp := out4_place t y
  unfold colArray4
  have e1 : pointOfRow (((cfg0.win 4).blk t).view.emb y) = t := Fin.ext (by show (((cfg0.win 4).blk t).view.emb y 0).val / 32 = t.val; omega)
  have e2 : inBlockRow (((cfg0.win 4).blk t).view.emb y) = ⟨(y 0).val, hy0⟩ := Fin.ext (by show (((cfg0.win 4).blk t).view.emb y 0).val % 32 = (y 0).val; omega)
  rw [e1, e2]
  refine congrArg (k0_pay2 (blockAt m c 3 t) (blockAt m c 0 t)) ?_
  funext a; match a with
    | ⟨0, _⟩ => rfl
    | ⟨1, _⟩ => exact Fin.ext (by show (y 1).val = 0; omega)

/-- WHAT POINT `t` WRITES BACK into output window 5 is block `t` of `colArray5`. -/
theorem written5 (c : Dev nD) (t : Fin cfg0.N) :
    (regionData m 0 c).flushed 5 t = ((cfg0.win 5).blk t).view.read (Elt F) (colArray5 m c) := by
  show (cfg0.win 5).cut (grid0.coords t) ((regionData m 0 c).after 5 t) = _
  rw [after_5]
  unfold column5
  rw [View.canon_unit_zero zero2]
  simp only [View.ld_unit_zero (S := S32x50000) zero2]
  funext y
  show k0_pay3 (blockAt m c 3 t) (blockAt m c 1 t) y = colArray5 m c (((cfg0.win 5).blk t).view.emb y)
  have hy0 : (y 0).val < 32 := (y 0).isLt
  have hy1 : (y 1).val < 1 := (y 1).isLt
  have ht : t.val < 32 := by have := t.isLt; have hN : cfg0.N = 32 := N_0; omega
  have hp := out5_place t y
  unfold colArray5
  have e1 : pointOfRow (((cfg0.win 5).blk t).view.emb y) = t := Fin.ext (by show (((cfg0.win 5).blk t).view.emb y 0).val / 32 = t.val; omega)
  have e2 : inBlockRow (((cfg0.win 5).blk t).view.emb y) = ⟨(y 0).val, hy0⟩ := Fin.ext (by show (((cfg0.win 5).blk t).view.emb y 0).val % 32 = (y 0).val; omega)
  rw [e1, e2]
  refine congrArg (k0_pay3 (blockAt m c 3 t) (blockAt m c 1 t)) ?_
  funext a; match a with
    | ⟨0, _⟩ => rfl
    | ⟨1, _⟩ => exact Fin.ext (by show (y 1).val = 0; omega)

/-- WHAT POINT `t` WRITES BACK into output window 6 is block `t` of `colArray6`. -/
theorem written6 (c : Dev nD) (t : Fin cfg0.N) :
    (regionData m 0 c).flushed 6 t = ((cfg0.win 6).blk t).view.read (Elt F) (colArray6 m c) := by
  show (cfg0.win 6).cut (grid0.coords t) ((regionData m 0 c).after 6 t) = _
  rw [after_6]
  unfold column6
  rw [View.canon_unit_zero zero2]
  simp only [View.ld_unit_zero (S := S32x50000) zero2]
  funext y
  show k0_pay1 (blockAt m c 3 t) (blockAt m c 2 t) y = colArray6 m c (((cfg0.win 6).blk t).view.emb y)
  have hy0 : (y 0).val < 32 := (y 0).isLt
  have hy1 : (y 1).val < 1 := (y 1).isLt
  have ht : t.val < 32 := by have := t.isLt; have hN : cfg0.N = 32 := N_0; omega
  have hp := out6_place t y
  unfold colArray6
  have e1 : pointOfRow (((cfg0.win 6).blk t).view.emb y) = t := Fin.ext (by show (((cfg0.win 6).blk t).view.emb y 0).val / 32 = t.val; omega)
  have e2 : inBlockRow (((cfg0.win 6).blk t).view.emb y) = ⟨(y 0).val, hy0⟩ := Fin.ext (by show (((cfg0.win 6).blk t).view.emb y 0).val % 32 = (y 0).val; omega)
  rw [e1, e2]
  refine congrArg (k0_pay1 (blockAt m c 3 t) (blockAt m c 2 t)) ?_
  funext a; match a with
    | ⟨0, _⟩ => rfl
    | ⟨1, _⟩ => exact Fin.ext (by show (y 1).val = 0; omega)

/-- Every row of output window 4's array is written back by the point of its block. -/
theorem covered4 (i : S1024x1.Idx) :
    ∃ t : Fin cfg0.N, (cfg0.win 4).flush t = true ∧ i ∈ ((cfg0.win 4).blk t).view.set := by
  have hi0 : (i 0).val < 1024 := (i 0).isLt
  have hi1 : (i 1).val < 1 := (i 1).isLt
  refine ⟨pointOfRow i, flush0_4 _, ?_⟩
  obtain ⟨-, -, -, -, -, -, -, -, e40, e41, e50, e51, e60, e61⟩ := window_indices (pointOfRow i)
  have hq : (pointOfRow i).val = (i 0).val / 32 := rfl
  show i ∈ ((View.whole main_v0_0).slice (win0_4.rect (pointOfRow i))).set
  rw [View.set_slice_whole, Rect.mem_set_unit]
  intro a
  match a with
  | ⟨0, _⟩ => show win0_4.index (pointOfRow i) (0 : Fin 2) * 32 ≤ (i 0).val ∧ (i 0).val < win0_4.index (pointOfRow i) (0 : Fin 2) * 32 + 32; omega
  | ⟨1, _⟩ => show win0_4.index (pointOfRow i) (1 : Fin 2) * 1 ≤ (i 1).val ∧ (i 1).val < win0_4.index (pointOfRow i) (1 : Fin 2) * 1 + 1; omega

/-- THE ARRAY of output window 4 after the run. -/
theorem final4 (c : Dev nD) : (regionData m 0 c).arrAt 4 cfg0.N = colArray4 m c :=
  (regionData m 0 c).arrAt_eq_of_cover 4 (colArray4 m c) (fun t _ => written4 m c t) covered4

/-- Every row of output window 5's array is written back by the point of its block. -/
theorem covered5 (i : S1024x1.Idx) :
    ∃ t : Fin cfg0.N, (cfg0.win 5).flush t = true ∧ i ∈ ((cfg0.win 5).blk t).view.set := by
  have hi0 : (i 0).val < 1024 := (i 0).isLt
  have hi1 : (i 1).val < 1 := (i 1).isLt
  refine ⟨pointOfRow i, flush0_5 _, ?_⟩
  obtain ⟨-, -, -, -, -, -, -, -, e40, e41, e50, e51, e60, e61⟩ := window_indices (pointOfRow i)
  have hq : (pointOfRow i).val = (i 0).val / 32 := rfl
  show i ∈ ((View.whole main_v0_1).slice (win0_5.rect (pointOfRow i))).set
  rw [View.set_slice_whole, Rect.mem_set_unit]
  intro a
  match a with
  | ⟨0, _⟩ => show win0_5.index (pointOfRow i) (0 : Fin 2) * 32 ≤ (i 0).val ∧ (i 0).val < win0_5.index (pointOfRow i) (0 : Fin 2) * 32 + 32; omega
  | ⟨1, _⟩ => show win0_5.index (pointOfRow i) (1 : Fin 2) * 1 ≤ (i 1).val ∧ (i 1).val < win0_5.index (pointOfRow i) (1 : Fin 2) * 1 + 1; omega

/-- THE ARRAY of output window 5 after the run. -/
theorem final5 (c : Dev nD) : (regionData m 0 c).arrAt 5 cfg0.N = colArray5 m c :=
  (regionData m 0 c).arrAt_eq_of_cover 5 (colArray5 m c) (fun t _ => written5 m c t) covered5

/-- Every row of output window 6's array is written back by the point of its block. -/
theorem covered6 (i : S1024x1.Idx) :
    ∃ t : Fin cfg0.N, (cfg0.win 6).flush t = true ∧ i ∈ ((cfg0.win 6).blk t).view.set := by
  have hi0 : (i 0).val < 1024 := (i 0).isLt
  have hi1 : (i 1).val < 1 := (i 1).isLt
  refine ⟨pointOfRow i, flush0_6 _, ?_⟩
  obtain ⟨-, -, -, -, -, -, -, -, e40, e41, e50, e51, e60, e61⟩ := window_indices (pointOfRow i)
  have hq : (pointOfRow i).val = (i 0).val / 32 := rfl
  show i ∈ ((View.whole main_v0_2).slice (win0_6.rect (pointOfRow i))).set
  rw [View.set_slice_whole, Rect.mem_set_unit]
  intro a
  match a with
  | ⟨0, _⟩ => show win0_6.index (pointOfRow i) (0 : Fin 2) * 32 ≤ (i 0).val ∧ (i 0).val < win0_6.index (pointOfRow i) (0 : Fin 2) * 32 + 32; omega
  | ⟨1, _⟩ => show win0_6.index (pointOfRow i) (1 : Fin 2) * 1 ≤ (i 1).val ∧ (i 1).val < win0_6.index (pointOfRow i) (1 : Fin 2) * 1 + 1; omega

/-- THE ARRAY of output window 6 after the run. -/
theorem final6 (c : Dev nD) : (regionData m 0 c).arrAt 6 cfg0.N = colArray6 m c :=
  (regionData m 0 c).arrAt_eq_of_cover 6 (colArray6 m c) (fun t _ => written6 m c t) covered6

end Cert.KernelIdeal.Run

end
-- ==== Proof.IdealResults.lean ====
/-
  The six results of the idealized kernel program as functions of what the region leaves (any float instance).

  After the region, host lines 1–19 turn the three [1024, 1] column arrays into three scalars — for each, the sum of
  the column, divided by 1024, negated — and their mean (the sum of the three divided by 3).  The remaining lines
  compute, from the five [1024, 256] argument arrays alone, the two divergence terms and the transport term, and
  combine: loss = mean + ½·(divergences) + 1·transport.  The lines on the [1024, 256] arrays are, operation for
  operation, the reference's own, so they are stated here through the reference's stage functions.
-/
import proofs.«174350_j48515950576387_2_alg».proof.Proof.IdealRegionRun
import proofs.«174350_j48515950576387_2_alg».proof.Proof.RefRead
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

variable {F : FTy → Type} [FloatOps F]

/-- The negated mean of a [1024, 1] column: its sum (from 0) divided by 1024, negated. -/
def negMean (O : (⟨S1024x1, .f32⟩ : BufTy).Contents (Elt F)) : (⟨S_, .f32⟩ : BufTy).Contents (Elt F) :=
  Host.negf (Host.divf (Host.reduceAdd O (constant S_ .f32 0x00000000#32) reducesTo_S1024x1_S_d0_1 h_S_) (constant S_ .f32 0x44800000#32))

/-- The mean of the three negated means. -/
def meanOfThree (O4 O5 O6 : (⟨S1024x1, .f32⟩ : BufTy).Contents (Elt F)) : (⟨S_, .f32⟩ : BufTy).Contents (Elt F) :=
  Host.divf (addf (addf (negMean O4) (negMean O5)) (negMean O6)) (constant S_ .f32 0x40400000#32)

variable (V : Valuation τ sig (Elt F))

attribute [local irreducible] Host.reduce Host.reduceAdd in
set_option maxHeartbeats 8000000 in
/-- Result 5 (the first column's negated mean), after the lines, from any contents `V` at the region's exit. -/
theorem lines_v3 : StableHlo.after hostOps1 V (Proc.devRef .tc main_v3) = negMean (V (Proc.devRef .tc main_v0_0)) := by
  after_results_simp <;> rfl

attribute [local irreducible] Host.reduce Host.reduceAdd in
set_option maxHeartbeats 8000000 in
/-- Result 4 (the second column's). -/
theorem lines_v6 : StableHlo.after hostOps1 V (Proc.devRef .tc main_v6) = negMean (V (Proc.devRef .tc main_v0_1)) := by
  after_results_simp <;> rfl

attribute [local irreducible] Host.reduce Host.reduceAdd in
set_option maxHeartbeats 8000000 in
/-- Result 3 (the third column's). -/
theorem lines_v9 : StableHlo.after hostOps1 V (Proc.devRef .tc main_v9) = negMean (V (Proc.devRef .tc main_v0_2)) := by
  after_results_simp <;> rfl

attribute [local irreducible] Host.reduce Host.reduceAdd in
set_option maxHeartbeats 8000000 in
/-- Result 1: the mean of the three. -/
theorem lines_v12 : StableHlo.after hostOps1 V (Proc.devRef .tc main_v12)
    = meanOfThree (V (Proc.devRef .tc main_v0_0)) (V (Proc.devRef .tc main_v0_1)) (V (Proc.devRef .tc main_v0_2)) := by
  after_results_simp <;> rfl

attribute [local irreducible] Host.reduce Host.reduceAdd in
set_option maxHeartbeats 8000000 in
/-- Result 2: the transport term, the reference's own stage of the four [1024, 256] arrays it reads. -/
theorem lines_v74 : StableHlo.after hostOps1 V (Proc.devRef .tc main_v74)
    = Cert.ReferenceIdeal.ReadP.val_main_v88 (F := F) (V (Proc.devRef .tc main_arg3)) (V (Proc.devRef .tc main_arg4)) (V (Proc.devRef .tc main_arg7)) (V (Proc.devRef .tc main_arg8)) := by
  after_results_simp <;> rfl

attribute [local irreducible] Host.reduce Host.reduceAdd in
set_option maxHeartbeats 16000000 in
/-- Result 0: the loss — the mean of the three, plus the reference's own half-sum of the two divergence terms, plus
    the reference's own transport term. -/
theorem lines_v79 : StableHlo.after hostOps1 V (Proc.devRef .tc main_v79)
    = addf (addf (meanOfThree (V (Proc.devRef .tc main_v0_0)) (V (Proc.devRef .tc main_v0_1)) (V (Proc.devRef .tc main_v0_2)))
        (Cert.ReferenceIdeal.ReadP.val_main_v90 (F := F) (V (Proc.devRef .tc main_arg2)) (V (Proc.devRef .tc main_arg3)) (V (Proc.devRef .tc main_arg4)) (V (Proc.devRef .tc main_arg7)) (V (Proc.devRef .tc main_arg8))))
      (Cert.ReferenceIdeal.ReadP.val_main_v92 (F := F) (V (Proc.devRef .tc main_arg3)) (V (Proc.devRef .tc main_arg4)) (V (Proc.devRef .tc main_arg7)) (V (Proc.devRef .tc main_arg8))) := by
  after_results_simp <;> rfl

end Cert.KernelIdeal.Run

end
-- ==== Proof.RowMean.lean ====
/-
  The value one row contributes: the mean over the row's 50000 columns of the row's log-softmax weighted by
  the row's weights. For logits `l` and weights `x` over `Fin 50000`:

    m      = max (-∞) (max_j l j)                (the row maximum, taken from -∞ twice, as both programs do)
    s j    = l j - m
    lse    = log (∑_k exp (s k))
    value  = (∑_j (s j - lse) * x j) / 50000

  The three literals stay words (`Ideal.ofBits .f32 …`): -∞ is `0xFF800000`, 50000 is `0x47435000`; neither is
  ever evaluated. Sums are `Finset` sums over `Fin 50000`; the maximum is the fold of `max` from -∞.
-/
import Idealize.ShloMosaic.PureOps.Ideal
import Idealize.ShloMosaic.Lib.ValueIdx

noncomputable section

open scoped BigOperators

namespace Cert.RowMean

open Idealize.ShloMosaic

/-- The row maximum: `max` of -∞ and the fold of `max` from -∞ over the row. -/
def rowMax (l : Fin 50000 → EReal) : EReal :=
  max (Ideal.ofBits .f32 0xFF800000#32)
    ((Finset.univ : Finset (Fin 50000)).fold max (Ideal.ofBits .f32 0xFF800000#32) l)

/-- The logarithm of the sum of the exponentials of the row shifted by its maximum. -/
def rowLse (l : Fin 50000 → EReal) : EReal :=
  Ideal.log (∑ k : Fin 50000, Ideal.exp (l k - rowMax l))

/-- One row's value: the weighted sum of the row's log-softmax, divided by 50000. -/
def rowMean (l x : Fin 50000 → EReal) : EReal :=
  Ideal.div (∑ j : Fin 50000, (l j - rowMax l - rowLse l) * x j) (Ideal.ofBits .f32 0x47435000#32)

end Cert.RowMean

end
-- ==== Proof.LibRowLayout.lean ====
/-
  Rows of a matrix read by coordinates: what the layout and reduction operations of a row-wise computation give at
  an index written `ix1 p` / `ix2 p j`.

  • a vector `[a]` cast to a column `[a, 1]` reads, at `(p, u)`, entry `p`;
  • a column `[a, 1]` broadcast to `[a, b]` reads, at `(p, j)`, the column's entry `(p, 0)`;
  • the index obtained from the reduced index `p` by putting coordinate `k` back on axis 1 is `(p, k)`;
  • hence a reduction of an `[a, b]` array over axis 1, read at `p`, runs over the row `j ↦ (p, j)`: a sum for an
    `add` reduction (the kernel's and the host's), a fold of `max` for a `maximumf` one (the kernel's and the host's).
-/
import Idealize.ShloMosaic.Lib.ValueLayout
import Idealize.ShloMosaic.Lib.ValueIdx
import Idealize.ShloMosaic.PureOps.Ideal.Laws
import Idealize.ShloMosaic.PureOps.Reduce

noncomputable section

open scoped BigOperators

namespace Cert.RowLayout

open Idealize.ShloMosaic Idealize.ShloMosaic.ValueIdx

variable {α : Type}

/-! ## The column forms of a cast and a broadcast -/

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, j)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (j : Fin b) :
    broadcastTo ⟨2, ![a, b]⟩ v h (ix2 p j) = v (ix2 p (0 : Fin 1)) := by
  refine broadcastTo_apply v h (ix2 p j) (ix2 p (0 : Fin 1)) fun ax => ?_
  match ax with
  | ⟨0, _⟩ =>
    show p.val = if a = 1 then 0 else p.val
    split
    · have := p.isLt; omega
    · rfl
  | ⟨1, _⟩ => rfl

/-! ## A reduction over axis 1 runs over the row -/

/-- The reduced index `p` with column `k` put back on axis 1 is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The kernel's `add` reduction of an `[a, b]` array over axis 1, read at row `p`: the sum over the row. -/
theorem multiReduction_add_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] (⟨1, ![a]⟩ : Shape) src acc h hφ hacc (ix1 p) = ∑ j : Fin b, src (ix2 p j) := by
  refine (Ideal.multiReduction_add_single src acc h hφ hacc (ix1 p)).trans ?_
  exact Finset.sum_congr rfl fun k _ => congrArg src (lift_row h p k)

/-- The kernel's `maximumf` reduction of an `[a, b]` array over axis 1, read at row `p`: the fold of `max` from the
    accumulator's value over the row. -/
theorem multiReduction_maximumf_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) fun j => src (ix2 p j) := by
  refine (Ideal.multiReduction_maximumf_single src acc h hφ hacc (ix1 p)).trans ?_
  have hf : (src ∘ h.lift (ix1 p)) = fun k : Fin b => src (ix2 p k) :=
    funext fun k => congrArg src (lift_row h p k)
  exact congrArg (fun f => Finset.fold max (Ideal.ofBits .f32 acc) f (Finset.univ : Finset (Fin b))) hf

/-- The host's reduce with a maximum body of an `[a, b]` array over axis 1, read at row `p`: the fold of `max` from the
    initial value's element over the row. -/
theorem hostReduce_maximumf_row {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) fun j => x (ix2 p j) := by
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Cert.RowLayout

end
-- ==== Proof.KernelRows.lean ====
/-
  The kernel's rows. Each of the kernel's three stored values is, for a `[32, 50000]` block of logits and the block
  of weights beside it, a `[32, 1]` column; its entry `(p, 0)` is the row value (`Cert.RowMean.rowMean`) of row `p` of
  the two blocks. The proof pushes the index through the operations: the pointwise ones read at the index, the two
  reductions over axis 1 read at a row as a fold of `max` and a sum over the row, the cast `[32] → [32, 1]` and the
  broadcast `[32, 1] → [32, 50000]` read the row's one entry.
-/
import proofs.«174350_j48515950576387_2_alg».proof.Proof.Gen.KernelIdeal.Skeleton
import proofs.«174350_j48515950576387_2_alg».proof.Proof.RowMean
import proofs.«174350_j48515950576387_2_alg».proof.Proof.LibRowLayout

noncomputable section

open scoped BigOperators

namespace Cert.KernelRows

open Idealize.ShloMosaic Idealize.ShloMosaic.ValueIdx Cert.KernelIdeal Cert.RowMean Cert.RowLayout

/-! ## The operations of a row computation at the block's shapes

The two reductions are stated with their format and accumulator side conditions typed as the kernel's term carries
them (`f32 = f32 ∨ f32 = bf16`, and the accumulator word equal to itself), so that they rewrite that term. -/

/-- The row sum of a block: the `add` reduction over axis 1 from the zero word, read at row `p`. -/
theorem blockSum_apply (src : FVec Ideal S32x50000 .f32) (h : S32x50000.Reduces [1] S32)
    (hφ : FTy.f32 = FTy.f32 ∨ FTy.f32 = FTy.bf16) (hacc : (0x00000000#32 : BitVec 32) = 0x00000000#32) (p : Fin 32) :
    multiReduction .add [1] S32 src 0x00000000#32 h hφ hacc (ix1 p) = ∑ j : Fin 50000, src (ix2 p j) :=
  multiReduction_add_row src _ h hφ hacc p

/-- The row maximum of a block, joined with -∞ once more: the `maximumf` reduction over axis 1 from the word of -∞
    under a `maximumf` with the splat of that word, read at row `p`. -/
theorem blockRowMax_apply (src : FVec Ideal S32x50000 .f32) (h : S32x50000.Reduces [1] S32)
    (hφ : FTy.f32 = FTy.f32 ∨ FTy.f32 = FTy.bf16) (hacc : (0xFF800000#32 : BitVec 32) = 0xFF800000#32) (p : Fin 32) :
    maximumf (broadcast S32 (Ideal.ofBits .f32 0xFF800000#32))
        (multiReduction .maximumf [1] S32 src 0xFF800000#32 h hφ hacc) (ix1 p)
      = max (Ideal.ofBits .f32 0xFF800000#32)
          ((Finset.univ : Finset (Fin 50000)).fold max (Ideal.ofBits .f32 0xFF800000#32) fun j => src (ix2 p j)) :=
  (maximumf_apply _ _ (ix1 p)).trans
    (congrArg (max (Ideal.ofBits .f32 0xFF800000#32)) (multiReduction_maximumf_row src _ h hφ hacc p))

/-- A `[32]` vector cast to a column, read at `(p, u)`. -/
theorem column_apply (x : FVec Ideal S32 .f32) (h : S32.ShapeCasts S32x1) (p : Fin 32) (u : Fin 1) :
    shapeCast S32x1 x h (ix2 p u) = x (ix1 p) :=
  shapeCast_a_a1_apply x h p u

/-- A column broadcast over the block, read at `(p, j)`. -/
theorem spread_apply (v : FVec Ideal S32x1 .f32) (h : S32x1.Broadcasts S32x50000) (p : Fin 32) (j : Fin 50000) :
    broadcastTo S32x50000 v h (ix2 p j) = v (ix2 p (0 : Fin 1)) :=
  broadcastTo_a1_ab_apply v h p j

/-- The exponential and the logarithm read at an index. -/
theorem exp_apply {s : Shape} (x : FVec Ideal s .f32) (i : s.Idx) : exp x i = Ideal.exp (x i) := rfl
theorem log_apply {s : Shape} (x : FVec Ideal s .f32) (i : s.Idx) : log x i = Ideal.log (x i) := rfl

/-! ## The three stored values, row by row -/

/-- The first stored value at `(p, 0)` is the row value of row `p`. The index goes through the quotient and the cast
    to a column to the outer sum over the row; through each summand to the inner sum over the row; through each of
    its summands to the row maximum; the three reductions are read by rewriting, the rest by the pointwise lemmas. -/
theorem k0_pay2_row (v0 v1 : FVec Ideal S32x50000 .f32) (p : Fin 32) :
    Gen.k0_pay2 (F := Ideal) v0 v1 (ix2 p (0 : Fin 1))
      = rowMean (fun j => v1 (ix2 p j)) (fun j => v0 (ix2 p j)) := by
  unfold Gen.k0_pay2 rowMean rowLse rowMax
  simp only [divf_apply, broadcast_apply, column_apply, Ideal.ofBits_def]
  rw [blockSum_apply]
  simp only [mulf_apply, subf_apply, spread_apply, column_apply, log_apply]
  rw [blockSum_apply]
  simp only [exp_apply, subf_apply, spread_apply, column_apply]
  rw [blockRowMax_apply]

/-- The second stored value is the same function of its two blocks as the first. -/
theorem k0_pay3_row (v0 v1 : FVec Ideal S32x50000 .f32) (p : Fin 32) :
    Gen.k0_pay3 (F := Ideal) v0 v1 (ix2 p (0 : Fin 1))
      = rowMean (fun j => v1 (ix2 p j)) (fun j => v0 (ix2 p j)) :=
  (congrFun (show Gen.k0_pay3 (F := Ideal) v0 v1 = Gen.k0_pay2 (F := Ideal) v0 v1 from rfl) _).trans
    (k0_pay2_row v0 v1 p)

/-- The third stored value is the same function of its two blocks as the first. -/
theorem k0_pay1_row (v0 v1 : FVec Ideal S32x50000 .f32) (p : Fin 32) :
    Gen.k0_pay1 (F := Ideal) v0 v1 (ix2 p (0 : Fin 1))
      = rowMean (fun j => v1 (ix2 p j)) (fun j => v0 (ix2 p j)) :=
  (congrFun (show Gen.k0_pay1 (F := Ideal) v0 v1 = Gen.k0_pay2 (F := Ideal) v0 v1 from rfl) _).trans
    (k0_pay2_row v0 v1 p)

end Cert.KernelRows

end
-- ==== Proof.LibColumnSum.lean ====
/-
  The sum of the rows' values, taken two ways: the host's sum of a `[1024, 1]` column over both of its axes and the
  host's sum of a `[1024]` vector over its one axis. Each is the initial value plus the sum of all entries; the
  column's entries are indexed by `(r, 0)`, the vector's by `r`, so when the two agree entry by entry the two sums
  are one.
-/
import Idealize.ShloMosaic.PureOps.Ideal.Laws
import Idealize.ShloMosaic.Lib.ValueIdx

noncomputable section

open scoped BigOperators

namespace Cert.RowSum

open Idealize.ShloMosaic Idealize.ShloMosaic.ValueIdx

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the index set of an `[n, 1]` column is the sum over its rows of the entry `(r, 0)`. -/
theorem sum_column {M : Type*} [AddCommMonoid M] {n : Nat} (f : (⟨2, ![n, 1]⟩ : Shape).Idx → M) :
    ∑ i, f i = ∑ r : Fin n, f (ix2 r (0 : Fin 1)) := by
  rw [sum_idx2]
  exact Finset.sum_congr rfl fun r _ => Fin.sum_univ_one fun b : Fin 1 => f (ix2 r b)

/-- The host's sum of a `[1024, 1]` column over both axes and its sum of a `[1024]` vector over its axis, from the
    same initial value, agree when the column's entry `(r, 0)` is the vector's entry `r` for every `r`. -/
theorem hostReduceAdd_column_eq_vector (O : FVec Ideal ⟨2, ![1024, 1]⟩ .f32) (R : FVec Ideal ⟨1, ![1024]⟩ .f32)
    (hOR : ∀ r : Fin 1024, O (ix2 r (0 : Fin 1)) = R (ix1 r))
    (h1 : (⟨2, ![1024, 1]⟩ : Shape).ReducesTo [0, 1] ⟨0, ![]⟩) (h2 : (⟨1, ![1024]⟩ : Shape).ReducesTo [0] ⟨0, ![]⟩)
    (hu : 0 < (⟨0, ![]⟩ : Shape).numel) (init : FVec Ideal ⟨0, ![]⟩ .f32) :
    Host.reduceAdd (F := Ideal) O init h1 hu = Host.reduceAdd (F := Ideal) R init h2 hu := by
  funext i
  simp only [Host.reduceAdd, Ideal.hostReduceAdd_def]
  rw [Ideal.hostReduceAdd_total h1 (fun b => b.elim0), Ideal.hostReduceAdd_total h2 (fun b => b.elim0),
    sum_column, sum_idx1]
  exact congrArg (init (Shape.Idx.first hu) + ·) (Finset.sum_congr rfl fun r _ => hOR r)

end Cert.RowSum

end
-- ==== Proof.ReferenceRows.lean ====
/-
  The reference's rows. The reference takes, for every row `r` of the whole `[1024, 50000]` arrays, the row maximum
  (a host reduce with a maximum body from -∞, joined with -∞ once more), the shifted row, the logarithm of the sum of
  its exponentials, the weighted sum of the log-softmax and its quotient by 50000: the row value
  (`Cert.RowMean.rowMean`) of row `r`. The proof reads the generated value of each operation at an index, identifies
  the composed index functions of the broadcasts and the sums with `ix1 r` / `ix2 r j`, and reads the maximum-reduce as
  a fold over the row. The zero word a host sum starts from is `0`.
-/
import proofs.«174350_j48515950576387_2_alg».proof.Proof.RefRead
import proofs.«174350_j48515950576387_2_alg».proof.Proof.RowMean
import proofs.«174350_j48515950576387_2_alg».proof.Proof.LibRowLayout

noncomputable section

open scoped BigOperators

namespace Cert.ReferenceRows

open Idealize.ShloMosaic Idealize.ShloMosaic.ValueIdx Cert.ReferenceIdeal Cert.ReferenceIdeal.ReadP Cert.RowMean Cert.RowLayout

/-! ## The composed index functions at a row -/

/-- Through the two broadcasts `[1024] → [1024, 1] → [1024, 50000]`, entry `(r, j)` comes from entry `r`. -/
theorem idx_rowOf_max (r : Fin 1024) (j : Fin 50000) :
    idx_main_call0_v3 (idx_main_call0_v4 (ix2 r j)) = ix1 r :=
  funext fun a => Fin.ext (by match a with | ⟨0, _⟩ => rfl)

theorem idx_rowOf_lse (r : Fin 1024) (j : Fin 50000) :
    idx_main_call0_v8 (idx_main_call0_v10 (ix2 r j)) = ix1 r :=
  funext fun a => Fin.ext (by match a with | ⟨0, _⟩ => rfl)

/-- The `k`-th summand of a sum over axis 1 at row `r` sits at `(r, k)`. -/
theorem idx_sum_exp (r : Fin 1024) (k : Fin 50000) : idx_main_call0_v7 (ix1 r) k = ix2 r k :=
  funext fun a => Fin.ext (by match a with | ⟨0, _⟩ => rfl | ⟨1, _⟩ => rfl)

theorem idx_sum_weighted (r : Fin 1024) (k : Fin 50000) : idx_main_v2 (ix1 r) k = ix2 r k :=
  funext fun a => Fin.ext (by match a with | ⟨0, _⟩ => rfl | ⟨1, _⟩ => rfl)

/-! ## The operations of the first row computation, read at a row -/

/-- The row maximum. -/
theorem refMax_apply (l : FVec Ideal S1024x50000 .f32) (r : Fin 1024) :
    val_main_call0_v2 (F := Ideal) l (ix1 r) = rowMax fun j => l (ix2 r j) := by
  rw [val_main_call0_v2_apply, val_main_call0_v1_apply, val_main_call0_cst_0_apply]
  unfold val_main_call0_v0
  rw [hostReduce_maximumf_row l _ _ (by decide) _ r, val_main_call0_cst_apply]
  rfl

/-- The row shifted by its maximum. -/
theorem refShift_apply (l : FVec Ideal S1024x50000 .f32) (r : Fin 1024) (j : Fin 50000) :
    val_main_call0_v5 (F := Ideal) l (ix2 r j) = l (ix2 r j) - rowMax fun j => l (ix2 r j) := by
  rw [val_main_call0_v5_apply, val_main_call0_v4_apply, val_main_call0_v3_apply, idx_rowOf_max, refMax_apply]
  rfl

/-- The logarithm of the sum of the shifted row's exponentials, broadcast over the row. -/
theorem refLse_apply (l : FVec Ideal S1024x50000 .f32) (r : Fin 1024) (j : Fin 50000) :
    val_main_call0_v10 (F := Ideal) l (ix2 r j) = rowLse fun j => l (ix2 r j) := by
  rw [val_main_call0_v10_apply, val_main_call0_v9_apply, val_main_call0_v8_apply, idx_rowOf_lse,
    val_main_call0_v7_apply, val_main_call0_cst_1_apply]
  simp only [idx_sum_exp, val_main_call0_v6_apply, refShift_apply, Ideal.ofBits_def, Ideal.ofBits_zero_f32, zero_add,
    Ideal.hostUnary_exp_def, Ideal.hostUnary_log_def]
  rfl

/-- The first row value of the reference. -/
theorem val_main_v4_row (l x : FVec Ideal S1024x50000 .f32) (r : Fin 1024) :
    val_main_v4 (F := Ideal) l x (ix1 r) = rowMean (fun j => l (ix2 r j)) (fun j => x (ix2 r j)) := by
  rw [val_main_v4_apply, val_main_v3_apply, val_main_cst_0_apply, val_main_v2_apply, val_main_cst_apply]
  simp only [idx_sum_weighted, val_main_v1_apply, val_main_v0_apply, refShift_apply, refLse_apply, Ideal.ofBits_def,
    Ideal.ofBits_zero_f32, zero_add, Ideal.hostDivf_def, Ideal.mulf_def, Ideal.subf_def]
  rfl

/-! ## The second and third row computations are the first, on other arguments -/

/-- The second row value: the same operations on the second logits array (the weights come first there). -/
theorem val_main_v12_row (x l : FVec Ideal S1024x50000 .f32) (r : Fin 1024) :
    val_main_v12 (F := Ideal) x l (ix1 r) = rowMean (fun j => l (ix2 r j)) (fun j => x (ix2 r j)) :=
  (congrFun (show val_main_v12 (F := Ideal) x l = val_main_v4 (F := Ideal) l x from rfl) (ix1 r)).trans
    (val_main_v4_row l x r)

/-- The third row value: the same operations on the third logits array. -/
theorem val_main_v20_row (x l : FVec Ideal S1024x50000 .f32) (r : Fin 1024) :
    val_main_v20 (F := Ideal) x l (ix1 r) = rowMean (fun j => l (ix2 r j)) (fun j => x (ix2 r j)) :=
  (congrFun (show val_main_v20 (F := Ideal) x l = val_main_v4 (F := Ideal) l x from rfl) (ix1 r)).trans
    (val_main_v4_row l x r)

end Cert.ReferenceRows

end
-- ==== Proof.IdealVsReference.lean ====
/-
  At the ideal instance the six results of the idealized kernel program are the reference's stage functions of the
  same argument arrays.

  Row `r` of an output column is the body's stored value at point r / 32, entry r % 32; that is the row value of
  row r % 32 of the logits block and the weights block there, and those block rows are rows `r` of the argument
  arrays.  The reference's per-row vector holds the same row values.  The host's sum of the [1024, 1] column (over
  both axes) is the sum of its 1024 entries, as is the reference's sum of its [1024] vector; so the three negated
  means agree, hence their mean.  The remaining host lines are the reference's own operations on the same five
  [1024, 256] argument arrays.
-/
import proofs.«174350_j48515950576387_2_alg».proof.Proof.IdealColumns
import proofs.«174350_j48515950576387_2_alg».proof.Proof.IdealResults
import proofs.«174350_j48515950576387_2_alg».proof.Proof.KernelRows
import proofs.«174350_j48515950576387_2_alg».proof.Proof.LibColumnSum
import proofs.«174350_j48515950576387_2_alg».proof.Proof.ReferenceRows

set_option maxRecDepth 16384

noncomputable section

namespace Cert.KernelIdeal.Run

open Cert.KernelIdeal Cert.KernelIdeal.Gen Cert.RowMean
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The output columns, row by row -/

/-- Row `r` of output window 4's array is the row value of row `r` of argument 0 weighted by row `r` of argument 1. -/
theorem col4_row (c : Dev nD) (r : Fin 1024) :
    colArray4 m c (ix2 r (0 : Fin 1)) = rowMean (fun j => (m ((c : Thread nD τ).loc main_arg0)) (ix2 r j)) (fun j => (m ((c : Thread nD τ).loc main_arg1)) (ix2 r j)) := by
  have hr : 32 * (pointOfRow (ix2 r (0 : Fin 1))).val + (inBlockRow (ix2 r (0 : Fin 1))).val = r.val := by
    show 32 * (r.val / 32) + r.val % 32 = r.val
    omega
  have hlt : 32 * (pointOfRow (ix2 r (0 : Fin 1))).val + (inBlockRow (ix2 r (0 : Fin 1))).val < 1024 := by rw [hr]; exact r.isLt
  have e : (⟨32 * (pointOfRow (ix2 r (0 : Fin 1))).val + (inBlockRow (ix2 r (0 : Fin 1))).val, hlt⟩ : Fin 1024) = r := Fin.ext hr
  have eL : (fun j => blockAt m c 0 (pointOfRow (ix2 r (0 : Fin 1))) (ix2 (inBlockRow (ix2 r (0 : Fin 1))) j)) = fun j => (m ((c : Thread nD τ).loc main_arg0)) (ix2 r j) :=
    funext fun j => (block0_entry m c _ _ j hlt).trans (by rw [e])
  have eX : (fun j => blockAt m c 3 (pointOfRow (ix2 r (0 : Fin 1))) (ix2 (inBlockRow (ix2 r (0 : Fin 1))) j)) = fun j => (m ((c : Thread nD τ).loc main_arg1)) (ix2 r j) :=
    funext fun j => (block3_entry m c _ _ j hlt).trans (by rw [e])
  unfold colArray4
  refine (Cert.KernelRows.k0_pay2_row (blockAt m c 3 (pointOfRow (ix2 r (0 : Fin 1)))) (blockAt m c 0 (pointOfRow (ix2 r (0 : Fin 1)))) (inBlockRow (ix2 r (0 : Fin 1)))).trans ?_
  exact congrArg₂ rowMean eL eX

/-- Row `r` of output window 5's array is the row value of row `r` of argument 5 weighted by row `r` of argument 1. -/
theorem col5_row (c : Dev nD) (r : Fin 1024) :
    colArray5 m c (ix2 r (0 : Fin 1)) = rowMean (fun j => (m ((c : Thread nD τ).loc main_arg5)) (ix2 r j)) (fun j => (m ((c : Thread nD τ).loc main_arg1)) (ix2 r j)) := by
  have hr : 32 * (pointOfRow (ix2 r (0 : Fin 1))).val + (inBlockRow (ix2 r (0 : Fin 1))).val = r.val := by
    show 32 * (r.val / 32) + r.val % 32 = r.val
    omega
  have hlt : 32 * (pointOfRow (ix2 r (0 : Fin 1))).val + (inBlockRow (ix2 r (0 : Fin 1))).val < 1024 := by rw [hr]; exact r.isLt
  have e : (⟨32 * (pointOfRow (ix2 r (0 : Fin 1))).val + (inBlockRow (ix2 r (0 : Fin 1))).val, hlt⟩ : Fin 1024) = r := Fin.ext hr
  have eL : (fun j => blockAt m c 1 (pointOfRow (ix2 r (0 : Fin 1))) (ix2 (inBlockRow (ix2 r (0 : Fin 1))) j)) = fun j => (m ((c : Thread nD τ).loc main_arg5)) (ix2 r j) :=
    funext fun j => (block1_entry m c _ _ j hlt).trans (by rw [e])
  have eX : (fun j => blockAt m c 3 (pointOfRow (ix2 r (0 : Fin 1))) (ix2 (inBlockRow (ix2 r (0 : Fin 1))) j)) = fun j => (m ((c : Thread nD τ).loc main_arg1)) (ix2 r j) :=
    funext fun j => (block3_entry m c _ _ j hlt).trans (by rw [e])
  unfold colArray5
  refine (Cert.KernelRows.k0_pay3_row (blockAt m c 3 (pointOfRow (ix2 r (0 : Fin 1)))) (blockAt m c 1 (pointOfRow (ix2 r (0 : Fin 1)))) (inBlockRow (ix2 r (0 : Fin 1)))).trans ?_
  exact congrArg₂ rowMean eL eX

/-- Row `r` of output window 6's array is the row value of row `r` of argument 6 weighted by row `r` of argument 1. -/
theorem col6_row (c : Dev nD) (r : Fin 1024) :
    colArray6 m c (ix2 r (0 : Fin 1)) = rowMean (fun j => (m ((c : Thread nD τ).loc main_arg6)) (ix2 r j)) (fun j => (m ((c : Thread nD τ).loc main_arg1)) (ix2 r j)) := by
  have hr : 32 * (pointOfRow (ix2 r (0 : Fin 1))).val + (inBlockRow (ix2 r (0 : Fin 1))).val = r.val := by
    show 32 * (r.val / 32) + r.val % 32 = r.val
    omega
  have hlt : 32 * (pointOfRow (ix2 r (0 : Fin 1))).val + (inBlockRow (ix2 r (0 : Fin 1))).val < 1024 := by rw [hr]; exact r.isLt
  have e : (⟨32 * (pointOfRow (ix2 r (0 : Fin 1))).val + (inBlockRow (ix2 r (0 : Fin 1))).val, hlt⟩ : Fin 1024) = r := Fin.ext hr
  have eL : (fun j => blockAt m c 2 (pointOfRow (ix2 r (0 : Fin 1))) (ix2 (inBlockRow (ix2 r (0 : Fin 1))) j)) = fun j => (m ((c : Thread nD τ).loc main_arg6)) (ix2 r j) :=
    funext fun j => (block2_entry m c _ _ j hlt).trans (by rw [e])
  have eX : (fun j => blockAt m c 3 (pointOfRow (ix2 r (0 : Fin 1))) (ix2 (inBlockRow (ix2 r (0 : Fin 1))) j)) = fun j => (m ((c : Thread nD τ).loc main_arg1)) (ix2 r j) :=
    funext fun j => (block3_entry m c _ _ j hlt).trans (by rw [e])
  unfold colArray6
  refine (Cert.KernelRows.k0_pay1_row (blockAt m c 3 (pointOfRow (ix2 r (0 : Fin 1)))) (blockAt m c 2 (pointOfRow (ix2 r (0 : Fin 1)))) (inBlockRow (ix2 r (0 : Fin 1)))).trans ?_
  exact congrArg₂ rowMean eL eX

/-! ## The three negated means -/

attribute [local irreducible] Host.reduce Host.reduceAdd in
/-- The negated mean of output window 4's column is the reference's result for argument 0: row by row the column
    holds the reference's row means, and the sum of a [1024, 1] column is the sum of the [1024] vector of its entries. -/
theorem negMean_col4 (c : Dev nD) :
    negMean (colArray4 m c) = Cert.ReferenceIdeal.ReadP.val_main_v7 (F := Ideal) (m ((c : Thread nD τ).loc main_arg0)) (m ((c : Thread nD τ).loc main_arg1)) := by
  have hrow : ∀ r : Fin 1024, colArray4 m c (ix2 r (0 : Fin 1)) = Cert.ReferenceIdeal.ReadP.val_main_v4 (F := Ideal) (m ((c : Thread nD τ).loc main_arg0)) (m ((c : Thread nD τ).loc main_arg1)) (ix1 r) :=
    fun r => (col4_row m c r).trans (Cert.ReferenceRows.val_main_v4_row _ _ r).symm
  exact congrArg (fun s => Host.negf (Host.divf s (constant S_ .f32 0x44800000#32)))
    (Cert.RowSum.hostReduceAdd_column_eq_vector (colArray4 m c) (Cert.ReferenceIdeal.ReadP.val_main_v4 (F := Ideal) (m ((c : Thread nD τ).loc main_arg0)) (m ((c : Thread nD τ).loc main_arg1))) hrow
      reducesTo_S1024x1_S_d0_1 Cert.ReferenceIdeal.Facts₀.reducesTo_S1024_S_d0 h_S_ (constant S_ .f32 0x00000000#32))

attribute [local irreducible] Host.reduce Host.reduceAdd in
/-- The negated mean of output window 5's column is the reference's result for argument 5: row by row the column
    holds the reference's row means, and the sum of a [1024, 1] column is the sum of the [1024] vector of its entries. -/
theorem negMean_col5 (c : Dev nD) :
    negMean (colArray5 m c) = Cert.ReferenceIdeal.ReadP.val_main_v15 (F := Ideal) (m ((c : Thread nD τ).loc main_arg1)) (m ((c : Thread nD τ).loc main_arg5)) := by
  have hrow : ∀ r : Fin 1024, colArray5 m c (ix2 r (0 : Fin 1)) = Cert.ReferenceIdeal.ReadP.val_main_v12 (F := Ideal) (m ((c : Thread nD τ).loc main_arg1)) (m ((c : Thread nD τ).loc main_arg5)) (ix1 r) :=
    fun r => (col5_row m c r).trans (Cert.ReferenceRows.val_main_v12_row _ _ r).symm
  exact congrArg (fun s => Host.negf (Host.divf s (constant S_ .f32 0x44800000#32)))
    (Cert.RowSum.hostReduceAdd_column_eq_vector (colArray5 m c) (Cert.ReferenceIdeal.ReadP.val_main_v12 (F := Ideal) (m ((c : Thread nD τ).loc main_arg1)) (m ((c : Thread nD τ).loc main_arg5))) hrow
      reducesTo_S1024x1_S_d0_1 Cert.ReferenceIdeal.Facts₀.reducesTo_S1024_S_d0 h_S_ (constant S_ .f32 0x00000000#32))

attribute [local irreducible] Host.reduce Host.reduceAdd in
/-- The negated mean of output window 6's column is the reference's result for argument 6: row by row the column
    holds the reference's row means, and the sum of a [1024, 1] column is the sum of the [1024] vector of its entries. -/
theorem negMean_col6 (c : Dev nD) :
    negMean (colArray6 m c) = Cert.ReferenceIdeal.ReadP.val_main_v23 (F := Ideal) (m ((c : Thread nD τ).loc main_arg1)) (m ((c : Thread nD τ).loc main_arg6)) := by
  have hrow : ∀ r : Fin 1024, colArray6 m c (ix2 r (0 : Fin 1)) = Cert.ReferenceIdeal.ReadP.val_main_v20 (F := Ideal) (m ((c : Thread nD τ).loc main_arg1)) (m ((c : Thread nD τ).loc main_arg6)) (ix1 r) :=
    fun r => (col6_row m c r).trans (Cert.ReferenceRows.val_main_v20_row _ _ r).symm
  exact congrArg (fun s => Host.negf (Host.divf s (constant S_ .f32 0x44800000#32)))
    (Cert.RowSum.hostReduceAdd_column_eq_vector (colArray6 m c) (Cert.ReferenceIdeal.ReadP.val_main_v20 (F := Ideal) (m ((c : Thread nD τ).loc main_arg1)) (m ((c : Thread nD τ).loc main_arg6))) hrow
      reducesTo_S1024x1_S_d0_1 Cert.ReferenceIdeal.Facts₀.reducesTo_S1024_S_d0 h_S_ (constant S_ .f32 0x00000000#32))

/-! ## What the host lines find at the region's exit -/

/-- Core `c`'s buffers when the region is left: the seven window arrays as the write-backs made them, every other
    buffer as launched. -/
abbrev exitContents (c : Dev nD) : Valuation τ sig (Elt Ideal) :=
  Pipeline.withArrays spec0 c (entry m c) fun w => (regionData m 0 c).arrAt w cfg0.N

/-- A result of the program is what the host lines leave in its buffer, from the exit contents. -/
theorem result_after_lines (c : Dev nD) (b : Ref sig .tc) :
    Pipeline.afterTail₀ cfgs (regionData m) 0 (entry m) [hostOps1] c b = StableHlo.after hostOps1 (exitContents m c) (Proc.devRef .tc b) := by
  unfold Pipeline.afterTail₀
  rw [show ([hostOps1] : List (List (HloOp τ sig (Elt Ideal)))).flatten = hostOps1 from by
        simp only [List.flatten_cons, List.flatten_nil, List.append_nil]]

theorem exit_col4 (c : Dev nD) : exitContents m c (Proc.devRef .tc main_v0_0) = colArray4 m c :=
  (Pipeline.withArrays_arr spec0 launch0.win.arr_inj c _ _ 4).trans (final4 m c)
theorem exit_col5 (c : Dev nD) : exitContents m c (Proc.devRef .tc main_v0_1) = colArray5 m c :=
  (Pipeline.withArrays_arr spec0 launch0.win.arr_inj c _ _ 5).trans (final5 m c)
theorem exit_col6 (c : Dev nD) : exitContents m c (Proc.devRef .tc main_v0_2) = colArray6 m c :=
  (Pipeline.withArrays_arr spec0 launch0.win.arr_inj c _ _ 6).trans (final6 m c)

/-- A buffer that is no window's array leaves the region as launched. -/
theorem exit_bypass (c : Dev nD) (b : Ref sig .tc) (hb : ∀ w, Pipeline.arrRef spec0 w ≠ b) :
    exitContents m c (Proc.devRef .tc b) = m ((c : Thread nD τ).loc b) :=
  (Pipeline.withArrays_of_ne spec0 c _ _ b hb).trans rfl

/-! ## The six results -/

theorem result5 (c : Dev nD) : Pipeline.afterTail₀ cfgs (regionData m) 0 (entry m) [hostOps1] c main_v3
    = Cert.ReferenceIdeal.ReadP.val_main_v7 (F := Ideal) (m ((c : Thread nD τ).loc main_arg0)) (m ((c : Thread nD τ).loc main_arg1)) := by
  rw [result_after_lines, lines_v3, exit_col4]; exact negMean_col4 m c

theorem result4 (c : Dev nD) : Pipeline.afterTail₀ cfgs (regionData m) 0 (entry m) [hostOps1] c main_v6
    = Cert.ReferenceIdeal.ReadP.val_main_v15 (F := Ideal) (m ((c : Thread nD τ).loc main_arg1)) (m ((c : Thread nD τ).loc main_arg5)) := by
  rw [result_after_lines, lines_v6, exit_col5]; exact negMean_col5 m c

theorem result3 (c : Dev nD) : Pipeline.afterTail₀ cfgs (regionData m) 0 (entry m) [hostOps1] c main_v9
    = Cert.ReferenceIdeal.ReadP.val_main_v23 (F := Ideal) (m ((c : Thread nD τ).loc main_arg1)) (m ((c : Thread nD τ).loc main_arg6)) := by
  rw [result_after_lines, lines_v9, exit_col6]; exact negMean_col6 m c

/-- The mean of the three negated means is the reference's. -/
theorem mean_eq (c : Dev nD) : meanOfThree (colArray4 m c) (colArray5 m c) (colArray6 m c)
    = Cert.ReferenceIdeal.ReadP.val_main_v26 (F := Ideal) (m ((c : Thread nD τ).loc main_arg0)) (m ((c : Thread nD τ).loc main_arg1)) (m ((c : Thread nD τ).loc main_arg5)) (m ((c : Thread nD τ).loc main_arg6)) := by
  unfold meanOfThree
  rw [negMean_col4, negMean_col5, negMean_col6]
  rfl

theorem result1 (c : Dev nD) : Pipeline.afterTail₀ cfgs (regionData m) 0 (entry m) [hostOps1] c main_v12
    = Cert.ReferenceIdeal.ReadP.val_main_v26 (F := Ideal) (m ((c : Thread nD τ).loc main_arg0)) (m ((c : Thread nD τ).loc main_arg1)) (m ((c : Thread nD τ).loc main_arg5)) (m ((c : Thread nD τ).loc main_arg6)) := by
  rw [result_after_lines, lines_v12, exit_col4, exit_col5, exit_col6]; exact mean_eq m c

theorem result2 (c : Dev nD) : Pipeline.afterTail₀ cfgs (regionData m) 0 (entry m) [hostOps1] c main_v74
    = Cert.ReferenceIdeal.ReadP.val_main_v88 (F := Ideal) (m ((c : Thread nD τ).loc main_arg3)) (m ((c : Thread nD τ).loc main_arg4)) (m ((c : Thread nD τ).loc main_arg7)) (m ((c : Thread nD τ).loc main_arg8)) := by
  rw [result_after_lines, lines_v74, exit_bypass m c main_arg3 (by decide), exit_bypass m c main_arg4 (by decide),
    exit_bypass m c main_arg7 (by decide), exit_bypass m c main_arg8 (by decide)]

theorem result0 (c : Dev nD) : Pipeline.afterTail₀ cfgs (regionData m) 0 (entry m) [hostOps1] c main_v79
    = Cert.ReferenceIdeal.ReadP.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [result_after_lines, lines_v79, exit_col4, exit_col5, exit_col6, exit_bypass m c main_arg2 (by decide),
    exit_bypass m c main_arg3 (by decide), exit_bypass m c main_arg4 (by decide),
    exit_bypass m c main_arg7 (by decide), exit_bypass m c main_arg8 (by decide), mean_eq]
  rfl

/-! ## The argument arrays at the end of the run -/

/-- In any final state of the run the ten argument arrays are as launched: the four staged ones because an input
    window's array is never written, the six others because no host line writes them. -/
theorem args_kept_of_post {r : PUnit × MemSt nD τ sig (Elt Ideal)}
    (h : Pipeline.FramePost cfgs (regionData m) 0 (Pipeline.afterTail₀ cfgs (regionData m) 0 (entry m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  have hw := fun op hop => (List.forall_iff_forall_mem.mp (lines_write_no_argument (F := Ideal))) op hop
  ⟨((h c).1 0).trans (((regionData m 0 c).arrAt_in 0 rfl _).trans ((regionData_A m c 0).trans (entryAt_eq m c main_arg0))),
   ((h c).1 3).trans (((regionData m 0 c).arrAt_in 3 rfl _).trans ((regionData_A m c 3).trans (entryAt_eq m c main_arg1))),
   ((h c).2 main_arg2 (Pipeline.mem_restRefs_of main_arg2 (by decide) (by decide))).trans
     (bypass_kept m c main_arg2 (by decide) (fun op hop => (hw op hop).1)),
   ((h c).2 main_arg3 (Pipeline.mem_restRefs_of main_arg3 (by decide) (by decide))).trans
     (bypass_kept m c main_arg3 (by decide) (fun op hop => (hw op hop).2.1)),
   ((h c).2 main_arg4 (Pipeline.mem_restRefs_of main_arg4 (by decide) (by decide))).trans
     (bypass_kept m c main_arg4 (by decide) (fun op hop => (hw op hop).2.2.1)),
   ((h c).1 1).trans (((regionData m 0 c).arrAt_in 1 rfl _).trans ((regionData_A m c 1).trans (entryAt_eq m c main_arg5))),
   ((h c).1 2).trans (((regionData m 0 c).arrAt_in 2 rfl _).trans ((regionData_A m c 2).trans (entryAt_eq m c main_arg6))),
   ((h c).2 main_arg7 (Pipeline.mem_restRefs_of main_arg7 (by decide) (by decide))).trans
     (bypass_kept m c main_arg7 (by decide) (fun op hop => (hw op hop).2.2.2.1)),
   ((h c).2 main_arg8 (Pipeline.mem_restRefs_of main_arg8 (by decide) (by decide))).trans
     (bypass_kept m c main_arg8 (by decide) (fun op hop => (hw op hop).2.2.2.2.1)),
   ((h c).2 main_arg9 (Pipeline.mem_restRefs_of main_arg9 (by decide) (by decide))).trans
     (bypass_kept m c main_arg9 (by decide) (fun op hop => (hw op hop).2.2.2.2.2))⟩

/-- A result buffer is neither scoped nor a window's array, so the run's post reads it after the host lines. -/
theorem result_of_post {r : PUnit × MemSt nD τ sig (Elt Ideal)}
    (h : Pipeline.FramePost cfgs (regionData m) 0 (Pipeline.afterTail₀ cfgs (regionData m) 0 (entry m) [hostOps1]) r) (c : Dev nD)
    (b : Ref sig .tc) (hs : b.isScoped = false) (ha : ∀ w, (spec0 w).arr.view.ref ≠ b) :
    r.2.mem ((c.tc : Thread nD τ).loc b) = Pipeline.afterTail₀ cfgs (regionData m) 0 (entry m) [hostOps1] c b :=
  (h c).2 b (Pipeline.mem_restRefs_of b hs ha)

end Cert.KernelIdeal.Run

end
-- ==== Proof.LibTypedRefCasts.lean ====
/-
  A typed buffer reference carries the tensor type of the value it holds; contents are moved to the buffer's own type
  and back along that equation.  Moving there and back changes nothing.
-/
import Idealize.ShloMosaic.Lib.StableHlo

noncomputable section

namespace Cert.ReferenceIdeal.Results

open Idealize.ShloMosaic Idealize.ShloMosaic.StableHlo

/-- Contents moved to a typed reference's buffer type and back are unchanged. -/
theorem ofBuf_toBuf {Val : EltTy → Type} {sg : RefSig} {T : BufTy} (x : TRef sg T) (v : T.Contents Val) :
    x.ofBuf (x.toBuf v) = v := by
  obtain ⟨r, rfl, _, _⟩ := x
  rfl

end Cert.ReferenceIdeal.Results

end
-- ==== Proof.RefResultsA.lean ====
/-
  Results 5, 4, 3 and 1 of the idealized reference program, read off its straight line of 176 host operations (any
  float instance): for a logits array L and the weights array X,
    - ( Σ_r ( Σ_j (log-softmax of row r of L)_j · X[r, j] ) / 50000 ) / 1024
  for L = arguments 0, 5, 6, and the mean of the three.  What a buffer holds after the line is the composition of the
  stage functions of the operations it depends on; the row maxima and row sums stay folded while the chain is read,
  and the outlined log-softmax function's typed buffer references move contents to a buffer's type and back, which
  changes nothing.
-/
import proofs.«174350_j48515950576387_2_alg».proof.Proof.RefOps
import proofs.«174350_j48515950576387_2_alg».proof.Proof.RefRead
import proofs.«174350_j48515950576387_2_alg».proof.Proof.LibTypedRefCasts

set_option maxRecDepth 16384

noncomputable section

namespace Cert.ReferenceIdeal.Results

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

attribute [local irreducible] Host.reduce Host.reduceAdd in
set_option maxHeartbeats 8000000 in
/-- Result 5: the negated mean over the rows of the weighted log-softmax row means of argument 0. -/
theorem ops_v7 (V : Valuation τ sig (Elt F)) :
    after (ops (F := F)) V (Proc.devRef .tc main_v7) = val_main_v7 (F := F) (V (Proc.devRef .tc main_arg0)) (V (Proc.devRef .tc main_arg1)) := by
  after_results_simp
  simp only [ofBuf_toBuf]
  simp only [TRef.ofBuf, TRef.toBuf, cast_eq]
  rfl

attribute [local irreducible] Host.reduce Host.reduceAdd in
set_option maxHeartbeats 8000000 in
/-- Result 4: the same of argument 5. -/
theorem ops_v15 (V : Valuation τ sig (Elt F)) :
    after (ops (F := F)) V (Proc.devRef .tc main_v15) = val_main_v15 (F := F) (V (Proc.devRef .tc main_arg1)) (V (Proc.devRef .tc main_arg5)) := by
  after_results_simp
  simp only [ofBuf_toBuf]
  simp only [TRef.ofBuf, TRef.toBuf, cast_eq]
  rfl

attribute [local irreducible] Host.reduce Host.reduceAdd in
set_option maxHeartbeats 8000000 in
/-- Result 3: the same of argument 6. -/
theorem ops_v23 (V : Valuation τ sig (Elt F)) :
    after (ops (F := F)) V (Proc.devRef .tc main_v23) = val_main_v23 (F := F) (V (Proc.devRef .tc main_arg1)) (V (Proc.devRef .tc main_arg6)) := by
  after_results_simp
  simp only [ofBuf_toBuf]
  simp only [TRef.ofBuf, TRef.toBuf, cast_eq]
  rfl

attribute [local irreducible] Host.reduce Host.reduceAdd in
set_option maxHeartbeats 16000000 in
/-- Result 1: the mean of the three. -/
theorem ops_v26 (V : Valuation τ sig (Elt F)) :
    after (ops (F := F)) V (Proc.devRef .tc main_v26) = val_main_v26 (F := F) (V (Proc.devRef .tc main_arg0)) (V (Proc.devRef .tc main_arg1)) (V (Proc.devRef .tc main_arg5)) (V (Proc.devRef .tc main_arg6)) := by
  after_results_simp
  simp only [ofBuf_toBuf]
  simp only [TRef.ofBuf, TRef.toBuf, cast_eq]
  rfl

end Cert.ReferenceIdeal.Results

end
-- ==== Proof.RefResultsB.lean ====
/-
  Results 2 and 0 of the idealized reference program (the transport term of the four [1024, 256] arrays; the loss),
  read off its straight line of host operations as in the module of the per-column results; and: no operation
  writes an argument array.
-/
import proofs.«174350_j48515950576387_2_alg».proof.Proof.RefOps
import proofs.«174350_j48515950576387_2_alg».proof.Proof.RefRead
import proofs.«174350_j48515950576387_2_alg».proof.Proof.LibTypedRefCasts

set_option maxRecDepth 16384

noncomputable section

namespace Cert.ReferenceIdeal.Results

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

attribute [local irreducible] Host.reduce Host.reduceAdd in
set_option maxHeartbeats 8000000 in
/-- Result 2: the transport term. -/
theorem ops_v88 (V : Valuation τ sig (Elt F)) :
    after (ops (F := F)) V (Proc.devRef .tc main_v88) = val_main_v88 (F := F) (V (Proc.devRef .tc main_arg3)) (V (Proc.devRef .tc main_arg4)) (V (Proc.devRef .tc main_arg7)) (V (Proc.devRef .tc main_arg8)) := by
  after_results_simp <;> (try simp only [ofBuf_toBuf]) <;> (try simp only [TRef.ofBuf, TRef.toBuf, cast_eq]) <;> rfl

attribute [local irreducible] Host.reduce Host.reduceAdd in
set_option maxHeartbeats 32000000 in
/-- Result 0: the loss. -/
theorem ops_v93 (V : Valuation τ sig (Elt F)) :
    after (ops (F := F)) V (Proc.devRef .tc main_v93) = val_main_v93 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  after_results_simp <;> (try simp only [ofBuf_toBuf]) <;> (try simp only [TRef.ofBuf, TRef.toBuf, cast_eq]) <;> rfl

/-! No operation writes an argument array. -/

theorem ops_arg0 (V : Valuation τ sig (Elt F)) : after (ops (F := F)) V (Proc.devRef .tc main_arg0) = V (Proc.devRef .tc main_arg0) := by
  after_results_simp <;> rfl
theorem ops_arg1 (V : Valuation τ sig (Elt F)) : after (ops (F := F)) V (Proc.devRef .tc main_arg1) = V (Proc.devRef .tc main_arg1) := by
  after_results_simp <;> rfl
theorem ops_arg2 (V : Valuation τ sig (Elt F)) : after (ops (F := F)) V (Proc.devRef .tc main_arg2) = V (Proc.devRef .tc main_arg2) := by
  after_results_simp <;> rfl
theorem ops_arg3 (V : Valuation τ sig (Elt F)) : after (ops (F := F)) V (Proc.devRef .tc main_arg3) = V (Proc.devRef .tc main_arg3) := by
  after_results_simp <;> rfl
theorem ops_arg4 (V : Valuation τ sig (Elt F)) : after (ops (F := F)) V (Proc.devRef .tc main_arg4) = V (Proc.devRef .tc main_arg4) := by
  after_results_simp <;> rfl
theorem ops_arg5 (V : Valuation τ sig (Elt F)) : after (ops (F := F)) V (Proc.devRef .tc main_arg5) = V (Proc.devRef .tc main_arg5) := by
  after_results_simp <;> rfl
theorem ops_arg6 (V : Valuation τ sig (Elt F)) : after (ops (F := F)) V (Proc.devRef .tc main_arg6) = V (Proc.devRef .tc main_arg6) := by
  after_results_simp <;> rfl
theorem ops_arg7 (V : Valuation τ sig (Elt F)) : after (ops (F := F)) V (Proc.devRef .tc main_arg7) = V (Proc.devRef .tc main_arg7) := by
  after_results_simp <;> rfl
theorem ops_arg8 (V : Valuation τ sig (Elt F)) : after (ops (F := F)) V (Proc.devRef .tc main_arg8) = V (Proc.devRef .tc main_arg8) := by
  after_results_simp <;> rfl
theorem ops_arg9 (V : Valuation τ sig (Elt F)) : after (ops (F := F)) V (Proc.devRef .tc main_arg9) = V (Proc.devRef .tc main_arg9) := by
  after_results_simp <;> rfl

end Cert.ReferenceIdeal.Results

end
-- ==== Proof.RefRun.lean ====
/-
  THE RUN of the idealized reference program: it terminates without fault, each result buffer holds its stage
  function of the argument arrays as launched, and the argument arrays are unchanged.
-/
import proofs.«174350_j48515950576387_2_alg».proof.Proof.RefResultsA
import proofs.«174350_j48515950576387_2_alg».proof.Proof.RefResultsB

set_option maxRecDepth 16384

noncomputable section

namespace Cert.ReferenceIdeal.Results

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- THE RUN of the reference: from any memory with zero counters every weakly fair execution terminates; each result
    buffer then holds its stage function of the argument arrays as launched, and the argument arrays are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v93) = val_main_v93 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v26) = val_main_v26 (F := F) (m ((c.tc : Thread nD τ).loc main_arg0)) (m ((c.tc : Thread nD τ).loc main_arg1)) (m ((c.tc : Thread nD τ).loc main_arg5)) (m ((c.tc : Thread nD τ).loc main_arg6))
      ∧ r.2.mem ((c.tc : Thread nD τ).loc main_v88) = val_main_v88 (F := F) (m ((c.tc : Thread nD τ).loc main_arg3)) (m ((c.tc : Thread nD τ).loc main_arg4)) (m ((c.tc : Thread nD τ).loc main_arg7)) (m ((c.tc : Thread nD τ).loc main_arg8))
      ∧ r.2.mem ((c.tc : Thread nD τ).loc main_v23) = val_main_v23 (F := F) (m ((c.tc : Thread nD τ).loc main_arg1)) (m ((c.tc : Thread nD τ).loc main_arg6))
      ∧ r.2.mem ((c.tc : Thread nD τ).loc main_v15) = val_main_v15 (F := F) (m ((c.tc : Thread nD τ).loc main_arg1)) (m ((c.tc : Thread nD τ).loc main_arg5))
      ∧ r.2.mem ((c.tc : Thread nD τ).loc main_v7) = val_main_v7 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_v93).trans (ops_v93 _), (h c main_v26).trans (ops_v26 _), (h c main_v88).trans (ops_v88 _),
     (h c main_v23).trans (ops_v23 _), (h c main_v15).trans (ops_v15 _), (h c main_v7).trans (ops_v7 _),
     (h c main_arg0).trans (ops_arg0 _),
     (h c main_arg1).trans (ops_arg1 _),
     (h c main_arg2).trans (ops_arg2 _),
     (h c main_arg3).trans (ops_arg3 _),
     (h c main_arg4).trans (ops_arg4 _),
     (h c main_arg5).trans (ops_arg5 _),
     (h c main_arg6).trans (ops_arg6 _),
     (h c main_arg7).trans (ops_arg7 _),
     (h c main_arg8).trans (ops_arg8 _),
     (h c main_arg9).trans (ops_arg9 _)⟩)
    (run_ops m ρ)

end Cert.ReferenceIdeal.Results

end
-- ==== Proof.lean ====
/-
  The five claims about the kernel and its reference.

  THE PROGRAMS.  For three [1024, 50000] logits arrays L (arguments 0, 5, 6) and one weights array X (argument 1)
  both programs compute  b(L) = - ( Σ_r ( Σ_j (log-softmax of row r of L)_j · X[r, j] ) / 50000 ) / 1024,  then
  the mean of the three b's, two divergence terms and a transport term of the five [1024, 256] arrays, and the loss
  mean + ½·(divergences) + 1·transport.  The kernel computes the inner row means in a grid of 32 points, 32 rows at
  a time, each point writing a [32, 1] column into a [1024, 1] array, and leaves the sum over the rows and
  everything on the [1024, 256] arrays to host lines after the region; the reference does all of it on the host.

  FRAMES.  Each program terminates without fault and leaves its ten argument arrays as launched: the kernel programs
  (word level and idealized) by the run of the region at every grid point followed by the 113 host lines, none of
  which writes an argument; the reference by its straight line of host operations.

  PRESERVES.  The idealized kernel is the kernel's own text read at the ideal instance: nothing was rewritten, and
  the claim is the true proposition.

  ALGEBRAIC.  At the ideal instance, from memories agreeing on the arguments, the six results agree.  Row r of a
  kernel output column and entry r of the reference's row vector are the same expression of row r of L and of X
  (a maximum is the fold of max from -∞, a sum is a sum, the same literals on both sides), the sum of a [1024, 1]
  column is the sum of its 1024 entries, and the remaining lines are the same operations of the same arrays.  No
  finiteness of the inputs is used.
-/
import proofs.«174350_j48515950576387_2_alg».proof.Defs
import proofs.«174350_j48515950576387_2_alg».proof.Proof.Gen.Pre_finite_inputs
import proofs.«174350_j48515950576387_2_alg».proof.Proof.BitsRegionRun
import proofs.«174350_j48515950576387_2_alg».proof.Proof.IdealVsReference
import proofs.«174350_j48515950576387_2_alg».proof.Proof.RefRun

noncomputable section

namespace Cert.Proof

open Idealize.ShloMosaic Idealize.SL.Sem

/-- The kernel program as printed runs and keeps its arguments. -/
theorem frame_kernel : Cert.frame_Kernel (hKernel := Cert.Kernel.Gen.facts) (hPre_finite_inputs := Cert.Pre_finite_inputs.Gen.facts) :=
  fun m ρ _ => Cert.Kernel.Run.frame m ρ

/-- The idealized kernel program runs and keeps its arguments. -/
theorem frame_kernelIdeal : Cert.frame_KernelIdeal (hKernelIdeal := Cert.KernelIdeal.Gen.facts) (hPre_finite_inputs := Cert.Pre_finite_inputs.Gen.facts) :=
  fun m ρ _ => Cert.KernelIdeal.Run.frame m ρ

/-- The idealized reference runs and keeps its arguments: its run with the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2.2)
    (Cert.ReferenceIdeal.Results.run (F := Ideal) m ρ)

/-- Nothing was rewritten when the kernel was idealized. -/
theorem preserves : Cert.preserves_Kernel_KernelIdeal := trivial

set_option maxHeartbeats 4000000 in
/-- From memories agreeing on the arguments both idealized programs run, and their six results are equal: each is the
    reference's stage function of the argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v93 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.ReadP.val_main_v26 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.ReadP.val_main_v88 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.ReadP.val_main_v23 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg6)),
    fun c => Cert.ReferenceIdeal.ReadP.val_main_v15 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg5)),
    fun c => Cert.ReferenceIdeal.ReadP.val_main_v7 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · exact (θ_run Cert.KernelIdeal.defs _ _).mono (fun r h c =>
      ⟨(Cert.KernelIdeal.Run.result_of_post m h c Cert.KernelIdeal.main_v79 (by decide) (by decide)).trans (Cert.KernelIdeal.Run.result0 m c),
       (Cert.KernelIdeal.Run.result_of_post m h c Cert.KernelIdeal.main_v12 (by decide) (by decide)).trans (Cert.KernelIdeal.Run.result1 m c),
       (Cert.KernelIdeal.Run.result_of_post m h c Cert.KernelIdeal.main_v74 (by decide) (by decide)).trans (Cert.KernelIdeal.Run.result2 m c),
       (Cert.KernelIdeal.Run.result_of_post m h c Cert.KernelIdeal.main_v9 (by decide) (by decide)).trans (Cert.KernelIdeal.Run.result3 m c),
       (Cert.KernelIdeal.Run.result_of_post m h c Cert.KernelIdeal.main_v6 (by decide) (by decide)).trans (Cert.KernelIdeal.Run.result4 m c),
       (Cert.KernelIdeal.Run.result_of_post m h c Cert.KernelIdeal.main_v3 (by decide) (by decide)).trans (Cert.KernelIdeal.Run.result5 m c),
       Cert.KernelIdeal.Run.args_kept_of_post m h c⟩)
      (Cert.KernelIdeal.Run.run_main m ρ)
  · refine (θ_run Cert.ReferenceIdeal.defs _ _).mono (fun r h c => ?_) (Cert.ReferenceIdeal.Results.run (F := Ideal) m' ρ')
    obtain ⟨h0, h1, h2, h3, h4, h5, hargs⟩ := h c
    obtain ⟨e0, e1, e2, e3, e4, e5, e6, e7, e8, e9⟩ := hagree c
    refine ⟨h0.trans ?_, h1.trans ?_, h2.trans ?_, h3.trans ?_, h4.trans ?_, h5.trans ?_, hargs⟩
    · rw [e0, e1, e2, e3, e4, e5, e6, e7, e8]
    · rw [e0, e1, e5, e6]
    · rw [e3, e4, e7, e8]
    · rw [e1, e6]
    · rw [e1, e5]
    · rw [e0, e1]

/-- The five claims, under the programs' stated side conditions. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
